-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x2x2048x3 : Shape := ⟨4, ![8, 2, 2048, 3]⟩
abbrev S2x8x2048x3 : Shape := ⟨4, ![2, 8, 2048, 3]⟩
abbrev S1x1 : Shape := ⟨2, ![1, 1]⟩
abbrev S1x1x512x3 : Shape := ⟨4, ![1, 1, 512, 3]⟩
abbrev S1x1x2048x3 : Shape := ⟨4, ![1, 1, 2048, 3]⟩
abbrev S1x2048 : Shape := ⟨2, ![1, 2048]⟩
abbrev S512x3 : Shape := ⟨2, ![512, 3]⟩
abbrev S2048x3 : Shape := ⟨2, ![2048, 3]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x2x2048x3, .f32⟩
  | .hbm, ⟨3, _⟩ => ⟨S8x2x2048x3, .f32⟩
  | .hbm, ⟨4, _⟩ => ⟨S2x8x2048x3, .f32⟩
  | .hbm, ⟨5, _⟩ => ⟨S2x8x2048x3, .f32⟩
  | .hbm, ⟨6, _⟩ => ⟨S1x1, .f32⟩
  | .hbm, ⟨7, _⟩ => ⟨S_, .f32⟩
  | .local _ .vmem, ⟨0, _⟩ => ⟨S1x1x512x3, .f32⟩
  | .local _ .vmem, ⟨1, _⟩ => ⟨S1x1x512x3, .f32⟩
  | .local _ .vmem, ⟨2, _⟩ => ⟨S1x1x2048x3, .f32⟩
  | .local _ .vmem, ⟨3, _⟩ => ⟨S1x1x2048x3, .f32⟩
  | .local _ .vmem, ⟨4, _⟩ => ⟨S1x1, .f32⟩
  | .local _ .vmem, ⟨5, _⟩ => ⟨S1x2048, .f32⟩
  | .local _ .vmem, ⟨6, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg0 : BitVec 32 := BitVec.ofNat 32 (i 0).val
  let c1_i32 : BitVec 32 := 1#32
  let v49 : BitVec 1 := Scalar.cmpi .eq arg0 c1_i32
  let arg1 : BitVec 32 := BitVec.ofNat 32 (i 1).val
  let c7_i32 : BitVec 32 := 7#32
  let v50 : BitVec 1 := Scalar.cmpi .eq arg1 c7_i32
  let v51 : BitVec 1 := Scalar.andi v49 v50
  let arg2 : BitVec 32 := BitVec.ofNat 32 (i 2).val
  let c3_i32_28 : BitVec 32 := 3#32
  let v52 : BitVec 1 := Scalar.cmpi .eq arg2 c3_i32_28
  let v53 : BitVec 1 := Scalar.andi v51 v52
  let v54 : BitVec 32 := Scalar.extui v53
  let c0_i32_29 : BitVec 32 := 0#32
  let v55 : BitVec 1 := Scalar.cmpi .ne v54 c0_i32_29
  v55

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

class Facts₀ : Prop where
  shapeCasts_S8x4096x3_S8x2x2048x3 : S8x4096x3.ShapeCasts S8x2x2048x3
  transposes_S8x2x2048x3_S2x8x2048x3_1_0_2_3 : S8x2x2048x3.Transposes [1, 0, 2, 3] S2x8x2048x3
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x512x3_S1x1x512x3_0_0_0_0 : ∀ a, (![0, 0, 0, 0] : Fin 4 → Nat) a + S1x1x512x3.size a ≤ S1x1x512x3.size a
  h_S1x1x512x3 : 0 < S1x1x512x3.numel
  shapeCasts_S1x1x512x3_S512x3 : S1x1x512x3.ShapeCasts S512x3
  inb_S1x1x2048x3_S1x1x2048x3_0_0_0_0 : ∀ a, (![0, 0, 0, 0] : Fin 4 → Nat) a + S1x1x2048x3.size a ≤ S1x1x2048x3.size a
  h_S1x1x2048x3 : 0 < S1x1x2048x3.numel
  shapeCasts_S1x1x2048x3_S2048x3 : S1x1x2048x3.ShapeCasts S2048x3
  reduces_S512x3_S512 : S512x3.Reduces [1] S512
  shapeCasts_S512_S512x1 : S512.ShapeCasts S512x1
  reduces_S2048x3_S2048 : S2048x3.Reduces [1] S2048
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  reduces_S512x1_S1 : S512x1.Reduces [0] S1
  shapeCasts_S1_S1x1 : S1.ShapeCasts S1x1
  reduces_S512x2048_S2048 : S512x2048.Reduces [0] S2048
  reduces_S1x2048_S1 : S1x2048.Reduces [1] S1
  shapeCasts_S1x1_S_ : S1x1.ShapeCasts S_
  dot_S512x3_S2048x3_S512x2048_1_1_0_0_n_n_wf : DotDims.WF S512x3 S2048x3 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x3.size a ≤ S2x8x2048x3.size a
  hwx0_0 : ∀ i : grid0.Coords, EltTy.bits .f32 = 32 ∨ (Rect.block (s := S2x8x2048x3) S1x1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x3.size a ≤ S2x8x2048x3.size a
  hwx0_1 : ∀ i : grid0.Coords, EltTy.bits .f32 = 32 ∨ (Rect.block (s := S2x8x2048x3) S1x1x2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x3_S2048x3_S512x2048_1_1_0_0_n_n : DotDims S512x3 S2048x3 S512x2048 where
  lhsContracting := [1]
  rhsContracting := [1]
  lhsNonContracting := [0]
  rhsNonContracting := [0]
  lhsBatch := []
  rhsBatch := []
  wf := dot_S512x3_S2048x3_S512x2048_1_1_0_0_n_n_wf

abbrev win0_0 : Pipeline.Window sig grid0 :=
  Pipeline.Window.ofSpec (Memref.whole main_v2) S1x1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048 : Shape := ⟨2, ![8, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x2048x3, .f32⟩
  | .hbm, ⟨3, _⟩ => ⟨S8x2048x3, .f32⟩
  | .hbm, ⟨4, _⟩ => ⟨S8x2048x1x3, .f32⟩
  | .hbm, ⟨5, _⟩ => ⟨S8x1x2048x3, .f32⟩
  | .hbm, ⟨6, _⟩ => ⟨S8x2048x2048x3, .f32⟩
  | .hbm, ⟨7, _⟩ => ⟨S8x2048x2048x3, .f32⟩
  | .hbm, ⟨8, _⟩ => ⟨S8x2048x2048x3, .f32⟩
  | .hbm, ⟨9, _⟩ => ⟨S8x2048x2048x3, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x2048x3, .f32⟩
  | .hbm, ⟨29, _⟩ => ⟨S8x2048x3, .f32⟩
  | .hbm, ⟨30, _⟩ => ⟨S8x2048x1x3, .f32⟩
  | .hbm, ⟨31, _⟩ => ⟨S8x1x2048x3, .f32⟩
  | .hbm, ⟨32, _⟩ => ⟨S8x2048x2048x3, .f32⟩
  | .hbm, ⟨33, _⟩ => ⟨S8x2048x2048x3, .f32⟩
  | .hbm, ⟨34, _⟩ => ⟨S8x2048x2048x3, .f32⟩
  | .hbm, ⟨35, _⟩ => ⟨S8x2048x2048x3, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S8x4096x3_S8x2048x3_0_0_0 : S8x4096x3.Slices ![0, 0, 0] S8x2048x3
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  reducesTo_S8x2048x2048_S8x2048_d2 : S8x2048x2048.ReducesTo [2] S8x2048
  reducesTo_S8x2048_S_d0_1 : S8x2048.ReducesTo [0, 1] S_
  reducesTo_S8x2048x2048_S8x2048_d1 : S8x2048x2048.ReducesTo [1] S8x2048
  slices_S8x4096x3_S8x2048x3_0_2048_0 : S8x4096x3.Slices ![0, 2048, 0] S8x2048x3

variable [Facts₀]

class Facts : Prop extends Facts₀ where

variable [Facts]
-- ==== Proof.Pieces.lean ====
/-
  What one grid point's body leaves in the two scratch buffers it carries (the running column minimum and the
  running total) and, at the last point, in the output block — each as ONE term of the point's two input blocks and of
  what the scratch held before, at any float instance.

  The five control cases differ only in which value the running column minimum and the running total start from
  (the first tile of a (chunk, batch) restarts the minimum from +inf; the very first point restarts the total from
  zero) and in whether the column minima's sum is added (a last tile) and the quotient stored (the last point).
-/
import proofs.«175267_j56556129354082_1_alg».proof.Proof.Gen.KernelIdeal.Frame
import Idealize.ShloMosaic.Lib.Pipeline.Value
import Idealize.ShloMosaic.Lib.Pipeline.FrameBody
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Case A: what the body leaves in carried scratch 0 is its last store's value, as one term of the blocks and of what the scratch held. -/
theorem sout_A_0 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : cond0_1 i) (hc2 : ¬cond0_2 i) (hc3 : ¬cond0_3 i)
    (x0 : Vec F S1x1x512x3 .f32) (x1 : Vec F S1x1x2048x3 .f32) :
    sout0_A_0 c i arg3 harg3 arg4 harg4 arg5 harg5 arg6 harg6 arg7 harg7 hc0 hc1 hc2 hc3 x0 x1 = k0_pay1 (k0_pay7 x0 x1) (k0_pay5 (F := F)) := by
  unfold sout0_A_0
  rw [View.read_writes_eq_canon _ _ _ (scover0_A_0 c i arg3 harg3 arg4 harg4 arg5 harg5 arg6 harg6 arg7 harg7 hc0 hc1 hc2 hc3 x0 x1)]
  unfold kernelRun0_A
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case A: what the body leaves in carried scratch 1 is its last store's value, as one term of the blocks and of what the scratch held. -/
theorem sout_A_1 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : cond0_1 i) (hc2 : ¬cond0_2 i) (hc3 : ¬cond0_3 i)
    (x0 : Vec F S1x1x512x3 .f32) (x1 : Vec F S1x1x2048x3 .f32) :
    sout0_A_1 c i arg3 harg3 arg4 harg4 arg5 harg5 arg6 harg6 arg7 harg7 hc0 hc1 hc2 hc3 x0 x1 = k0_pay2 (k0_pay8 x0 x1) (k0_pay6 (F := F)) := by
  unfold sout0_A_1
  rw [View.read_writes_eq_canon _ _ _ (scover0_A_1 c i arg3 harg3 arg4 harg4 arg5 harg5 arg6 harg6 arg7 harg7 hc0 hc1 hc2 hc3 x0 x1)]
  unfold kernelRun0_A
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case B: what the body leaves in carried scratch 0 is its last store's value, as one term of the blocks and of what the scratch held. -/
theorem sout_B_0 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : ¬cond0_2 i) (hc3 : ¬cond0_3 i)
    (x0 : Vec F S1x1x512x3 .f32) (x1 : Vec F S1x1x2048x3 .f32) (xs0 : Vec F S1x2048 .f32) (xs1 : Vec F S1x1 .f32) :
    sout0_B_0 c i arg3 harg3 arg4 harg4 arg5 harg5 arg6 harg6 arg7 harg7 hc0 hc1 hc2 hc3 x0 x1 xs0 xs1 = k0_pay1 (k0_pay7 x0 x1) xs0 := by
  unfold sout0_B_0
  rw [View.read_writes_eq_canon _ _ _ (scover0_B_0 c i arg3 harg3 arg4 harg4 arg5 harg5 arg6 harg6 arg7 harg7 hc0 hc1 hc2 hc3 x0 x1 xs0 xs1)]
  unfold kernelRun0_B
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case B: what the body leaves in carried scratch 1 is its last store's value, as one term of the blocks and of what the scratch held. -/
theorem sout_B_1 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : ¬cond0_2 i) (hc3 : ¬cond0_3 i)
    (x0 : Vec F S1x1x512x3 .f32) (x1 : Vec F S1x1x2048x3 .f32) (xs0 : Vec F S1x2048 .f32) (xs1 : Vec F S1x1 .f32) :
    sout0_B_1 c i arg3 harg3 arg4 harg4 arg5 harg5 arg6 harg6 arg7 harg7 hc0 hc1 hc2 hc3 x0 x1 xs0 xs1 = k0_pay2 (k0_pay8 x0 x1) xs1 := by
  unfold sout0_B_1
  rw [View.read_writes_eq_canon _ _ _ (scover0_B_1 c i arg3 harg3 arg4 harg4 arg5 harg5 arg6 harg6 arg7 harg7 hc0 hc1 hc2 hc3 x0 x1 xs0 xs1)]
  unfold kernelRun0_B
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case C: what the body leaves in carried scratch 0 is its last store's value, as one term of the blocks and of what the scratch held. -/
theorem sout_C_0 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : cond0_2 i) (hc3 : ¬cond0_3 i)
    (x0 : Vec F S1x1x512x3 .f32) (x1 : Vec F S1x1x2048x3 .f32) (xs0 : Vec F S1x2048 .f32) (xs1 : Vec F S1x1 .f32) :
    sout0_C_0 c i arg3 harg3 arg4 harg4 arg5 harg5 arg6 harg6 arg7 harg7 hc0 hc1 hc2 hc3 x0 x1 xs0 xs1 = k0_pay1 (k0_pay7 x0 x1) xs0 := by
  unfold sout0_C_0
  rw [View.read_writes_eq_canon _ _ _ (scover0_C_0 c i arg3 harg3 arg4 harg4 arg5 harg5 arg6 harg6 arg7 harg7 hc0 hc1 hc2 hc3 x0 x1 xs0 xs1)]
  unfold kernelRun0_C
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case C: what the body leaves in carried scratch 1 is its last store's value, as one term of the blocks and of what the scratch held. -/
theorem sout_C_1 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : cond0_2 i) (hc3 : ¬cond0_3 i)
    (x0 : Vec F S1x1x512x3 .f32) (x1 : Vec F S1x1x2048x3 .f32) (xs0 : Vec F S1x2048 .f32) (xs1 : Vec F S1x1 .f32) :
    sout0_C_1 c i arg3 harg3 arg4 harg4 arg5 harg5 arg6 harg6 arg7 harg7 hc0 hc1 hc2 hc3 x0 x1 xs0 xs1 = k0_pay3 (k0_pay1 (k0_pay7 x0 x1) xs0) (k0_pay2 (k0_pay8 x0 x1) xs1) := by
  unfold sout0_C_1
  rw [View.read_writes_eq_canon _ _ _ (scover0_C_1 c i arg3 harg3 arg4 harg4 arg5 harg5 arg6 harg6 arg7 harg7 hc0 hc1 hc2 hc3 x0 x1 xs0 xs1)]
  unfold kernelRun0_C
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case D: what the body leaves in carried scratch 0 is its last store's value, as one term of the blocks and of what the scratch held. -/
theorem sout_D_0 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (hc2 : ¬cond0_2 i) (hc3 : ¬cond0_3 i)
    (x0 : Vec F S1x1x512x3 .f32) (x1 : Vec F S1x1x2048x3 .f32) (xs1 : Vec F S1x1 .f32) :
    sout0_D_0 c i arg3 harg3 arg4 harg4 arg5 harg5 arg6 harg6 arg7 harg7 hc0 hc1 hc2 hc3 x0 x1 xs1 = k0_pay1 (k0_pay7 x0 x1) (k0_pay5 (F := F)) := by
  unfold sout0_D_0
  rw [View.read_writes_eq_canon _ _ _ (scover0_D_0 c i arg3 harg3 arg4 harg4 arg5 harg5 arg6 harg6 arg7 harg7 hc0 hc1 hc2 hc3 x0 x1 xs1)]
  unfold kernelRun0_D
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case D: what the body leaves in carried scratch 1 is its last store's value, as one term of the blocks and of what the scratch held. -/
theorem sout_D_1 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (hc2 : ¬cond0_2 i) (hc3 : ¬cond0_3 i)
    (x0 : Vec F S1x1x512x3 .f32) (x1 : Vec F S1x1x2048x3 .f32) (xs1 : Vec F S1x1 .f32) :
    sout0_D_1 c i arg3 harg3 arg4 harg4 arg5 harg5 arg6 harg6 arg7 harg7 hc0 hc1 hc2 hc3 x0 x1 xs1 = k0_pay2 (k0_pay8 x0 x1) xs1 := by
  unfold sout0_D_1
  rw [View.read_writes_eq_canon _ _ _ (scover0_D_1 c i arg3 harg3 arg4 harg4 arg5 harg5 arg6 harg6 arg7 harg7 hc0 hc1 hc2 hc3 x0 x1 xs1)]
  unfold kernelRun0_D
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case E: what the body leaves in carried scratch 0 is its last store's value, as one term of the blocks and of what the scratch held. -/
theorem sout_E_0 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : cond0_2 i) (hc3 : cond0_3 i)
    (x0 : Vec F S1x1x512x3 .f32) (x1 : Vec F S1x1x2048x3 .f32) (xs0 : Vec F S1x2048 .f32) (xs1 : Vec F S1x1 .f32) :
    sout0_E_0 c i arg3 harg3 arg4 harg4 arg5 harg5 arg6 harg6 arg7 harg7 hc0 hc1 hc2 hc3 x0 x1 xs0 xs1 = k0_pay1 (k0_pay7 x0 x1) xs0 := by
  unfold sout0_E_0
  rw [View.read_writes_eq_canon _ _ _ (scover0_E_0 c i arg3 harg3 arg4 harg4 arg5 harg5 arg6 harg6 arg7 harg7 hc0 hc1 hc2 hc3 x0 x1 xs0 xs1)]
  unfold kernelRun0_E
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- Case E: what the body leaves in carried scratch 1 is its last store's value, as one term of the blocks and of what the scratch held. -/
theorem sout_E_1 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : cond0_2 i) (hc3 : cond0_3 i)
    (x0 : Vec F S1x1x512x3 .f32) (x1 : Vec F S1x1x2048x3 .f32) (xs0 : Vec F S1x2048 .f32) (xs1 : Vec F S1x1 .f32) :
    sout0_E_1 c i arg3 harg3 arg4 harg4 arg5 harg5 arg6 harg6 arg7 harg7 hc0 hc1 hc2 hc3 x0 x1 xs0 xs1 = k0_pay3 (k0_pay1 (k0_pay7 x0 x1) xs0) (k0_pay2 (k0_pay8 x0 x1) xs1) := by
  unfold sout0_E_1
  rw [View.read_writes_eq_canon _ _ _ (scover0_E_1 c i arg3 harg3 arg4 harg4 arg5 harg5 arg6 harg6 arg7 harg7 hc0 hc1 hc2 hc3 x0 x1 xs0 xs1)]
  unfold kernelRun0_E
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

/-- The last point: the output block is the final total divided by the count. -/
theorem out_E_2 (c : Dev nD) (i : grid0.Coords) (arg3 : Memref sig .tc .vmem S1x1x512x3 .f32) (harg3 : arg3.IsWhole) (arg4 : Memref sig .tc .vmem S1x1x2048x3 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (hc2 : cond0_2 i) (hc3 : cond0_3 i)
    (x0 : Vec F S1x1x512x3 .f32) (x1 : Vec F S1x1x2048x3 .f32) (xs0 : Vec F S1x2048 .f32) (xs1 : Vec F S1x1 .f32) :
    out0_E_2 c i arg3 harg3 arg4 harg4 arg5 harg5 arg6 harg6 arg7 harg7 hc0 hc1 hc2 hc3 x0 x1 xs0 xs1 = k0_pay4 (k0_pay3 (k0_pay1 (k0_pay7 x0 x1) xs0) (k0_pay2 (k0_pay8 x0 x1) xs1)) := by
  unfold out0_E_2
  rw [View.read_writes_eq_canon _ _ _ (cover0_E_2 c i arg3 harg3 arg4 harg4 arg5 harg5 arg6 harg6 arg7 harg7 hc0 hc1 hc2 hc3 x0 x1 xs0 xs1)]
  unfold kernelRun0_E
  dsimp only
  sl_unfold_words
  first
    | rw [View.canon_unit_zero hz2]
    | rw [View.canon_cons_unit_zero (S := S1x2048) hz2]
    | rw [View.canon_cons_unit_zero (S := S1x1) hz2]
  simp only [View.readAt_eq_ld, harg3.read_unread, harg4.read_unread, harg6.read_unread, harg7.read_unread,
    View.readCov_cons_toLoadRect, View.readCov_unit_zero (S := S1x2048) _ hz2, View.readCov_unit_zero (S := S1x1) _ hz2,
    View.ld_unit_zero (S := S1x2048) hz2, View.ld_unit_zero (S := S1x1) hz2, View.ld_unit_zero (S := S1x1x512x3) hz4, View.ld_unit_zero (S := S1x1x2048x3) hz4]

end Cert.KernelIdeal.KValue

end
-- ==== Proof.Spec.lean ====
/-
  The chamfer loss both programs compute, as mathematics over the extended reals.

  For each of two chunks `c` and eight batches `b` there are 2048 query points and 2048 key points in ℝ³, and a
  matrix of distances `D c b i j`.  The loss adds, over the chunks, the mean over (batch, query) of the distance to
  the nearest key and the mean over (batch, key) of the distance to the nearest query; both means divide by 8·2048.

  The reference takes it chunk by chunk (`refVal`).  The kernel walks the 64 points (chunk, batch, tile of 512
  queries) in order, keeping a running column minimum over the tiles of one (chunk, batch) and ONE running total into
  which every tile's sum of row minima and, at a (chunk, batch)'s last tile, the sum of the column minima are added;
  it divides once at the end (`kerVal`).
-/
import Mathlib
import Idealize.ShloMosaic.PureOps.Ideal
import Idealize.ShloMosaic.PureOps.Ideal.Laws
import Idealize.ShloMosaic.Lib.ValueIdx

noncomputable section

namespace Chamfer

open Idealize.ShloMosaic

/-- The least of finitely many extended reals (`⊤` for none): the fold of `min` from `⊤`. -/
def fmin {n : ℕ} (f : Fin n → EReal) : EReal := (Finset.univ : Finset (Fin n)).fold min ⊤ f

/-- The number of (batch, point) pairs, 8 · 2048, as the float word both programs spell. -/
def cnt : EReal := Ideal.ofBits .f32 0x46800000#32

section Reference

variable (D : Fin 2 → Fin 8 → Fin 2048 → Fin 2048 → EReal)

/-- Over the batches and queries of chunk `c`, the distance to the nearest key, summed. -/
def rowSum (c : Fin 2) : EReal := ∑ b : Fin 8, ∑ i : Fin 2048, fmin (fun j => D c b i j)
/-- Over the batches and keys of chunk `c`, the distance to the nearest query, summed. -/
def colSum (c : Fin 2) : EReal := ∑ b : Fin 8, ∑ j : Fin 2048, fmin (fun i => D c b i j)
/-- One chunk's loss: the two means, each a sum from zero divided by the count. -/
def chunk (c : Fin 2) : EReal := Ideal.div (0 + rowSum D c) cnt + Ideal.div (0 + colSum D c) cnt
/-- The loss as the reference adds it: zero, the first chunk, the second chunk. -/
def refVal : EReal := (0 + chunk D 0) + chunk D 1

end Reference

section Kernel

variable (T : ℕ → Fin 512 → Fin 2048 → EReal)

/-- Point `n`'s sum of row minima: its 512 queries' nearest-key distances. -/
def rs (n : ℕ) : EReal := ∑ r : Fin 512, fmin (fun j => T n r j)
/-- Point `n`'s column minima: each key's nearest among the point's 512 queries. -/
def tm (n : ℕ) (j : Fin 2048) : EReal := fmin (fun r => T n r j)
/-- The running column minimum after point `n`: restarted from `⊤` at the first tile of each (chunk, batch). -/
def cm : ℕ → Fin 2048 → EReal
  | 0, j => min ⊤ (tm T 0 j)
  | n + 1, j => min (if (n + 1) % 4 = 0 then ⊤ else cm n j) (tm T (n + 1) j)
/-- The running total after point `n`: each point adds its row sum, a last tile also the column minima's sum. -/
def tot : ℕ → EReal
  | 0 => 0 + rs T 0
  | n + 1 => if (n + 1) % 4 = 3 then (tot n + rs T (n + 1)) + ∑ j : Fin 2048, cm T (n + 1) j else tot n + rs T (n + 1)
/-- The kernel's result: the total after the last of the 64 points, divided by the count. -/
def kerVal : EReal := Ideal.div (tot T 63) cnt

end Kernel

section Distances

/-- The two argument arrays' shape, f32[8, 4096, 3]. -/
abbrev SArg : Shape := ⟨3, ![8, 4096, 3]⟩

/-- Coordinate `d` of point `i` of chunk `c`, batch `b`: row `2048 c + i` of batch `b`. -/
def pt (c : Fin 2) (b : Fin 8) (i : Fin 2048) (d : Fin 3) : SArg.Idx :=
  ValueIdx.ix3 b (⟨2048 * c.val + i.val, by have := c.isLt; have := i.isLt; omega⟩ : Fin 4096) d

variable (X Y : SArg.Idx → EReal)

/-- The distance as the reference takes it: the root of the sum (from zero) of the squared coordinate differences. -/
def dRef (c : Fin 2) (b : Fin 8) (i j : Fin 2048) : EReal :=
  Ideal.sqrt (Ideal.ofBits .f32 0x00000000#32 + ∑ d : Fin 3, (X (pt c b i d) - Y (pt c b j d)) * (X (pt c b i d) - Y (pt c b j d)))

/-- The distance as the kernel takes it: the root of `|x|² + |y|² − 2 x·y`, clamped at zero. -/
def dKer (c : Fin 2) (b : Fin 8) (i j : Fin 2048) : EReal :=
  Ideal.sqrt (max (((∑ d : Fin 3, X (pt c b i d) * X (pt c b i d)) + (∑ d : Fin 3, Y (pt c b j d) * Y (pt c b j d)))
      - Ideal.ofBits .f32 0x40000000#32 * (∑ d : Fin 3, X (pt c b i d) * Y (pt c b j d)))
    (Ideal.ofBits .f32 0x00000000#32))

end Distances

/-! ## The float words -/

theorem ofBits_inf : Ideal.ofBits .f32 0x7F800000#32 = ⊤ := by simp [Ideal.ofBits, Ideal.ieee]
theorem cnt_eq : cnt = ((16384 : ℝ) : EReal) := by
  unfold cnt; simp [Ideal.ofBits, Ideal.ieee]; rw [← EReal.coe_mul]; norm_num
theorem two_eq : Ideal.ofBits .f32 0x40000000#32 = ((2 : ℝ) : EReal) := by
  simp [Ideal.ofBits, Ideal.ieee]; rw [← EReal.coe_mul]; norm_num

end Chamfer

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.Payload.lean ====
/-
  The body's arithmetic read at an index, over the extended reals.

  A point's distance tile: entry (r, j) is the root of |x_r|² + |y_j|² − 2 x_r·y_j clamped at zero, where x_r is row r
  of the point's 512 queries and y_j is row j of its 2048 keys.  From the tile: the sum over rows of the row minima,
  and the column minima folded into the running column minimum; the running total takes sums; the last point divides.
-/
import proofs.«175267_j56556129354082_1_alg».proof.Proof.Gen.KernelIdeal.Skeleton
import proofs.«175267_j56556129354082_1_alg».proof.Proof.Spec
import proofs.«175267_j56556129354082_1_alg».proof.Proof.LibKeepdims
import proofs.«175267_j56556129354082_1_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.KValue

open Cert.KernelIdeal Cert.KernelIdeal.Gen

/-! ## The reductions, at the coordinates the body uses -/

/-- A row's sum over its three coordinates. -/
theorem sum3_512 (src : FVec Ideal S512x3 .f32) (r : Fin 512) :
    multiReduction .add [1] S512 src 0x00000000#32 reduces_S512x3_S512 (.inl rfl) rfl (ix1 r) = ∑ d : Fin 3, src (ix2 r d) := by
  refine (Ideal.multiReduction_add_single src 0x00000000#32 reduces_S512x3_S512 (.inl rfl) rfl (ix1 r)).trans ?_
  refine Finset.sum_congr rfl fun d _ => congrArg src (funext fun a => Fin.ext ?_)
  match a with
  | ⟨0, _⟩ => rfl
  | ⟨1, _⟩ => rfl

theorem sum3_2048 (src : FVec Ideal S2048x3 .f32) (j : Fin 2048) :
    multiReduction .add [1] S2048 src 0x00000000#32 reduces_S2048x3_S2048 (.inl rfl) rfl (ix1 j) = ∑ d : Fin 3, src (ix2 j d) := by
  refine (Ideal.multiReduction_add_single src 0x00000000#32 reduces_S2048x3_S2048 (.inl rfl) rfl (ix1 j)).trans ?_
  refine Finset.sum_congr rfl fun d _ => congrArg src (funext fun a => Fin.ext ?_)
  match a with
  | ⟨0, _⟩ => rfl
  | ⟨1, _⟩ => rfl

/-- A row's least entry over the 2048 columns. -/
theorem min_row (src : FVec Ideal S512x2048 .f32) (r : Fin 512) :
    multiReduction .minimumf [1] S512 src 0x7F800000#32 reduces_S512x2048_S512 (.inl rfl) rfl (ix1 r)
      = Chamfer.fmin (fun j : Fin 2048 => src (ix2 r j)) := by
  refine (multiReduction_minimumf_eq_fold src 0x7F800000#32 reduces_S512x2048_S512 (.inl rfl) rfl (ix1 r)).trans ?_
  refine (reduces_S512x2048_S512.fold_filter_drop_single FloatOps.minimumf _ src (ix1 r)).trans ?_
  unfold Chamfer.fmin
  rw [show (FloatOps.ofBits .f32 0x7F800000#32 : Ideal .f32) = (⊤ : EReal) from Chamfer.ofBits_inf]
  refine Finset.fold_congr fun j _ => congrArg src (funext fun a => Fin.ext ?_)
  match a with
  | ⟨0, _⟩ => rfl
  | ⟨1, _⟩ => rfl

/-- A column's least entry over the 512 rows. -/
theorem min_col (src : FVec Ideal S512x2048 .f32) (j : Fin 2048) :
    multiReduction .minimumf [0] S2048 src 0x7F800000#32 reduces_S512x2048_S2048 (.inl rfl) rfl (ix1 j)
      = Chamfer.fmin (fun r : Fin 512 => src (ix2 r j)) := by
  refine (multiReduction_minimumf_eq_fold src 0x7F800000#32 reduces_S512x2048_S2048 (.inl rfl) rfl (ix1 j)).trans ?_
  refine (reduces_S512x2048_S2048.fold_filter_drop_single FloatOps.minimumf _ src (ix1 j)).trans ?_
  unfold Chamfer.fmin
  rw [show (FloatOps.ofBits .f32 0x7F800000#32 : Ideal .f32) = (⊤ : EReal) from Chamfer.ofBits_inf]
  refine Finset.fold_congr fun r _ => congrArg src (funext fun a => Fin.ext ?_)
  match a with
  | ⟨0, _⟩ => rfl
  | ⟨1, _⟩ => rfl

/-! ## The layout steps -/

/-- The query block with its two unit axes dropped: row `r`, coordinate `d`. -/
theorem rows512 (x0 : Vec Ideal S1x1x512x3 .f32) (r : Fin 512) (d : Fin 3) :
    shapeCast S512x3 x0 shapeCasts_S1x1x512x3_S512x3 (ix2 r d) = x0 (ix4 (0 : Fin 1) (0 : Fin 1) r d) :=
  shapeCast_apply x0 _ _ _ (by
    rw [Shape.rowMajor_val_four, Shape.rowMajor_val_two]
    show ((0 * 1 + 0) * 512 + r.val) * 3 + d.val = r.val * 3 + d.val
    omega)

/-- The key block with its two unit axes dropped. -/
theorem rows2048 (x1 : Vec Ideal S1x1x2048x3 .f32) (j : Fin 2048) (d : Fin 3) :
    shapeCast S2048x3 x1 shapeCasts_S1x1x2048x3_S2048x3 (ix2 j d) = x1 (ix4 (0 : Fin 1) (0 : Fin 1) j d) :=
  shapeCast_apply x1 _ _ _ (by
    rw [Shape.rowMajor_val_four, Shape.rowMajor_val_two]
    show ((0 * 1 + 0) * 2048 + j.val) * 3 + d.val = j.val * 3 + d.val
    omega)

/-- |x_r|², kept as a column and spread over the 2048 lanes. -/
theorem xx_apply (v11 : FVec Ideal S512x3 .f32) (r : Fin 512) (j : Fin 2048) :
    broadcastTo S512x2048 (shapeCast S512x1 (multiReduction .add [1] S512 (mulf v11 v11) 0x00000000#32 reduces_S512x3_S512 (.inl rfl) rfl)
        shapeCasts_S512_S512x1) broadcasts_S512x1_S512x2048 (ix2 r j)
      = ∑ d : Fin 3, v11 (ix2 r d) * v11 (ix2 r d) :=
  (Keepdims.broadcastTo_a1_ab_apply _ broadcasts_S512x1_S512x2048 r j).trans
    ((Keepdims.shapeCast_a_a1_apply _ shapeCasts_S512_S512x1 r 0).trans ((sum3_512 _ r).trans rfl))

/-- |y_j|², as a row spread over the 512 sublanes. -/
theorem yy_apply (v13 : FVec Ideal S2048x3 .f32) (r : Fin 512) (j : Fin 2048) :
    broadcastTo S512x2048 (shapeCast S1x2048 (multiReduction .add [1] S2048 (mulf v13 v13) 0x00000000#32 reduces_S2048x3_S2048 (.inl rfl) rfl)
        shapeCasts_S2048_S1x2048) broadcasts_S1x2048_S512x2048 (ix2 r j)
      = ∑ d : Fin 3, v13 (ix2 j d) * v13 (ix2 j d) :=
  (broadcastTo_1b_ab_apply _ broadcasts_S1x2048_S512x2048 r j).trans
    ((shapeCast_a_1a_apply _ shapeCasts_S2048_S1x2048 0 j).trans ((sum3_2048 _ j).trans rfl))

/-- x_r · y_j: the matrix unit's product of the queries with the transposed keys, into zeros. -/
theorem xy_apply (v11 : FVec Ideal S512x3 .f32) (v13 : FVec Ideal S2048x3 .f32) (r : Fin 512) (j : Fin 2048) :
    matmul dot_S512x3_S2048x3_S512x2048_1_1_0_0_n_n (some .fp32) v11 v13 (constant S512x2048 .f32 0x00000000#32) (ix2 r j)
      = ∑ d : Fin 3, v11 (ix2 r d) * v13 (ix2 j d) :=
  MatmulT.matmul_zero_apply dot_S512x3_S2048x3_S512x2048_1_1_0_0_n_n_wf (some .fp32) v11 v13 r j

/-! ## The payloads -/

/-- The distance tile at (r, j). -/
theorem pay7_apply (x0 : Vec Ideal S1x1x512x3 .f32) (x1 : Vec Ideal S1x1x2048x3 .f32) (r : Fin 512) (j : Fin 2048) :
    k0_pay7 (F := Ideal) x0 x1 (ix2 r j)
      = Ideal.sqrt (max (((∑ d : Fin 3, x0 (ix4 (0 : Fin 1) (0 : Fin 1) r d) * x0 (ix4 (0 : Fin 1) (0 : Fin 1) r d))
            + (∑ d : Fin 3, x1 (ix4 (0 : Fin 1) (0 : Fin 1) j d) * x1 (ix4 (0 : Fin 1) (0 : Fin 1) j d)))
          - Ideal.ofBits .f32 0x40000000#32 * (∑ d : Fin 3, x0 (ix4 (0 : Fin 1) (0 : Fin 1) r d) * x1 (ix4 (0 : Fin 1) (0 : Fin 1) j d)))
        (Ideal.ofBits .f32 0x00000000#32)) := by
  unfold k0_pay7
  refine congrArg Ideal.sqrt (congrArg₂ max (congrArg₂ (· - ·) (congrArg₂ (· + ·) ((xx_apply _ r j).trans ?_) ((yy_apply _ r j).trans ?_))
    (congrArg (Ideal.ofBits .f32 0x40000000#32 * ·) ((xy_apply _ _ r j).trans ?_))) rfl)
  · exact Finset.sum_congr rfl fun d _ => by rw [rows512]
  · exact Finset.sum_congr rfl fun d _ => by rw [rows2048]
  · exact Finset.sum_congr rfl fun d _ => by rw [rows512, rows2048]

/-- The running column minimum's update at column j. -/
theorem pay1_apply (v29 : FVec Ideal S512x2048 .f32) (v36 : Vec Ideal S1x2048 .f32) (j : Fin 2048) :
    k0_pay1 (F := Ideal) v29 v36 (ix2 (0 : Fin 1) j) = min (v36 (ix2 (0 : Fin 1) j)) (Chamfer.fmin (fun r : Fin 512 => v29 (ix2 r j))) := by
  unfold k0_pay1
  rw [shapeCast_self]
  exact congrArg (min (v36 (ix2 (0 : Fin 1) j))) ((shapeCast_a_1a_apply _ shapeCasts_S2048_S1x2048 0 j).trans (min_col v29 j))

/-- The restart value of the running column minimum. -/
theorem pay5_apply (i : S1x2048.Idx) : k0_pay5 (F := Ideal) i = (⊤ : EReal) := by
  unfold k0_pay5
  rw [shapeCast_self]
  exact Chamfer.ofBits_inf

/-- The restart value of the running total. -/
theorem pay6_apply (i : S1x1.Idx) : k0_pay6 (F := Ideal) i = (0 : EReal) := by
  unfold k0_pay6
  rw [shapeCast_self]
  exact Ideal.ofBits_zero_f32

/-- The running total takes the point's row sum. -/
theorem pay2_apply (v33 : FVec Ideal S1x1 .f32) (v41 : Vec Ideal S1x1 .f32) (i : S1x1.Idx) :
    k0_pay2 (F := Ideal) v33 v41 i = v41 i + v33 i := by
  unfold k0_pay2
  rw [shapeCast_self]
  rfl

/-- The point's row sum: over its 512 queries, the least distance to a key. -/
theorem pay8_apply (x0 : Vec Ideal S1x1x512x3 .f32) (x1 : Vec Ideal S1x1x2048x3 .f32) :
    k0_pay8 (F := Ideal) x0 x1 (ix2 (0 : Fin 1) (0 : Fin 1))
      = ∑ r : Fin 512, Chamfer.fmin (fun j : Fin 2048 => k0_pay7 (F := Ideal) x0 x1 (ix2 r j)) := by
  unfold k0_pay8
  refine (shapeCast_a_1a_apply _ shapeCasts_S1_S1x1 0 0).trans ?_
  refine (Ideal.multiReduction_add_single _ 0x00000000#32 reduces_S512x1_S1 (.inl rfl) rfl (ix1 (0 : Fin 1))).trans ?_
  refine Finset.sum_congr rfl fun r _ => ?_
  refine Eq.trans (congrArg _ (funext fun a => Fin.ext ?_)) ((Keepdims.shapeCast_a_a1_apply _ shapeCasts_S512_S512x1 r 0).trans (min_row _ r))
  match a with
  | ⟨0, _⟩ => rfl
  | ⟨1, _⟩ => rfl

/-- A last tile adds the column minima's sum. -/
theorem pay3_apply (v56 : Vec Ideal S1x2048 .f32) (v59 : Vec Ideal S1x1 .f32) :
    k0_pay3 (F := Ideal) v56 v59 (ix2 (0 : Fin 1) (0 : Fin 1)) = v59 (ix2 (0 : Fin 1) (0 : Fin 1)) + ∑ j : Fin 2048, v56 (ix2 (0 : Fin 1) j) := by
  unfold k0_pay3
  rw [shapeCast_self]
  refine congrArg (v59 (ix2 (0 : Fin 1) (0 : Fin 1)) + ·) ((shapeCast_a_1a_apply _ shapeCasts_S1_S1x1 0 0).trans ?_)
  refine (Ideal.multiReduction_add_single v56 0x00000000#32 reduces_S1x2048_S1 (.inl rfl) rfl (ix1 (0 : Fin 1))).trans ?_
  refine Finset.sum_congr rfl fun j _ => congrArg v56 (funext fun a => Fin.ext ?_)
  match a with
  | ⟨0, _⟩ => rfl
  | ⟨1, _⟩ => rfl

/-- The last point divides the total by the count. -/
theorem pay4_apply (v56 : Vec Ideal S1x1 .f32) (i : S1x1.Idx) :
    k0_pay4 (F := Ideal) v56 i = Ideal.div (v56 i) Chamfer.cnt := rfl

end Cert.KernelIdeal.KValue

end
-- ==== Proof.Accum.lean ====
/-
  The two carried scratch buffers point by point.

  After point `n` the first holds the running column minimum and the second the running total, each obtained from
  what the point before left by the body's own arithmetic: the column minimum restarts from +inf at the first tile of a
  (chunk, batch); the total takes the point's row sum and, at a last tile, the sum of the column minima.  Read over the
  extended reals these are the recursions `Chamfer.cm` and `Chamfer.tot` of the specification, over the points' distance
  tiles.
-/
import proofs.«175267_j56556129354082_1_alg».proof.Proof.Payload

set_option maxRecDepth 16384

noncomputable section

open Idealize.ShloMosaic Idealize.ShloMosaic.ValueIdx

namespace Cert.KernelIdeal.KValue

open Cert.KernelIdeal Cert.KernelIdeal.Gen

section
variable {F : FTy → Type} [FloatOps F]
variable (X0 : ℕ → Vec F S1x1x512x3 .f32) (X1 : ℕ → Vec F S1x1x2048x3 .f32)

/-- The running column minimum after point `n + 1`, from what point `n` left. -/
abbrev colStep (n : ℕ) (prev : Vec F S1x2048 .f32) : Vec F S1x2048 .f32 :=
  k0_pay1 (k0_pay7 (X0 (n + 1)) (X1 (n + 1))) (if (n + 1) % 4 = 0 then k0_pay5 (F := F) else prev)

/-- The running total after point `n + 1` before a last tile's extra term. -/
abbrev totStep (n : ℕ) (prev : Vec F S1x1 .f32) : Vec F S1x1 .f32 :=
  k0_pay2 (k0_pay8 (X0 (n + 1)) (X1 (n + 1))) prev

/-- What the two carried scratch buffers hold after point `n`: the body's arithmetic applied point after point. -/
def scr : ℕ → Vec F S1x2048 .f32 × Vec F S1x1 .f32
  | 0 => (k0_pay1 (k0_pay7 (X0 0) (X1 0)) (k0_pay5 (F := F)), k0_pay2 (k0_pay8 (X0 0) (X1 0)) (k0_pay6 (F := F)))
  | n + 1 =>
    (colStep X0 X1 n (scr n).1,
      if (n + 1) % 4 = 3 then k0_pay3 (colStep X0 X1 n (scr n).1) (totStep X0 X1 n (scr n).2) else totStep X0 X1 n (scr n).2)

theorem scr_zero : scr X0 X1 0
    = (k0_pay1 (k0_pay7 (X0 0) (X1 0)) (k0_pay5 (F := F)), k0_pay2 (k0_pay8 (X0 0) (X1 0)) (k0_pay6 (F := F))) := rfl

theorem scr_succ (n : ℕ) : scr X0 X1 (n + 1)
    = (colStep X0 X1 n (scr X0 X1 n).1,
      if (n + 1) % 4 = 3 then k0_pay3 (colStep X0 X1 n (scr X0 X1 n).1) (totStep X0 X1 n (scr X0 X1 n).2)
      else totStep X0 X1 n (scr X0 X1 n).2) := rfl

end

section
variable (X0 : ℕ → Vec Ideal S1x1x512x3 .f32) (X1 : ℕ → Vec Ideal S1x1x2048x3 .f32)

/-- Point `n`'s distance tile. -/
def tile (n : ℕ) (r : Fin 512) (j : Fin 2048) : EReal := k0_pay7 (F := Ideal) (X0 n) (X1 n) (ix2 r j)

/-- Over the extended reals the carried scratch follows the specification's recursions. -/
theorem scr_spec : ∀ n : ℕ,
    (∀ j : Fin 2048, (scr X0 X1 n).1 (ix2 (0 : Fin 1) j) = Chamfer.cm (tile X0 X1) n j)
      ∧ (scr X0 X1 n).2 (ix2 (0 : Fin 1) (0 : Fin 1)) = Chamfer.tot (tile X0 X1) n
  | 0 => by
    rw [scr_zero]
    refine ⟨fun j => ?_, ?_⟩
    · show k0_pay1 (F := Ideal) _ _ (ix2 (0 : Fin 1) j) = min ⊤ (Chamfer.tm (tile X0 X1) 0 j)
      rw [pay1_apply, pay5_apply]
      rfl
    · show k0_pay2 (F := Ideal) _ _ (ix2 (0 : Fin 1) (0 : Fin 1)) = 0 + Chamfer.rs (tile X0 X1) 0
      rw [pay2_apply, pay6_apply, pay8_apply]
      rfl
  | n + 1 => by
    obtain ⟨ih1, ih2⟩ := scr_spec n
    rw [scr_succ]
    have hcol : ∀ j : Fin 2048, colStep X0 X1 n (scr X0 X1 n).1 (ix2 (0 : Fin 1) j) = Chamfer.cm (tile X0 X1) (n + 1) j := by
      intro j
      show k0_pay1 (F := Ideal) _ _ (ix2 (0 : Fin 1) j)
        = min (if (n + 1) % 4 = 0 then ⊤ else Chamfer.cm (tile X0 X1) n j) (Chamfer.tm (tile X0 X1) (n + 1) j)
      rw [pay1_apply]
      by_cases h : (n + 1) % 4 = 0
      · rw [if_pos h, if_pos h, pay5_apply]; rfl
      · rw [if_neg h, if_neg h, ih1 j]; rfl
    have htot : totStep X0 X1 n (scr X0 X1 n).2 (ix2 (0 : Fin 1) (0 : Fin 1))
        = Chamfer.tot (tile X0 X1) n + Chamfer.rs (tile X0 X1) (n + 1) := by
      show k0_pay2 (F := Ideal) _ _ (ix2 (0 : Fin 1) (0 : Fin 1)) = _
      rw [pay2_apply, pay8_apply, ih2]
      rfl
    refine ⟨hcol, ?_⟩
    show (if (n + 1) % 4 = 3 then k0_pay3 (F := Ideal) _ _ else totStep X0 X1 n (scr X0 X1 n).2) (ix2 (0 : Fin 1) (0 : Fin 1))
      = if (n + 1) % 4 = 3 then (Chamfer.tot (tile X0 X1) n + Chamfer.rs (tile X0 X1) (n + 1)) + ∑ j : Fin 2048, Chamfer.cm (tile X0 X1) (n + 1) j
        else Chamfer.tot (tile X0 X1) n + Chamfer.rs (tile X0 X1) (n + 1)
    by_cases h : (n + 1) % 4 = 3
    · rw [if_pos h, if_pos h, pay3_apply, htot]
      exact congrArg (_ + ·) (Finset.sum_congr rfl fun j _ => hcol j)
    · rw [if_neg h, if_neg h, htot]

end

end Cert.KernelIdeal.KValue

end
-- ==== Proof.KernelRun.lean ====
/-
  The kernel's run, read as a value.

  The two carried scratch buffers after each grid point are the body's arithmetic applied point after point to the
  points' input blocks (by induction on the point, each control case contributing its own step); the last point stores
  the final total divided by the count into the one-entry output block, which is the whole result array; the reshape
  after the region hands that entry out as the scalar result.
-/
import proofs.«175267_j56556129354082_1_alg».proof.Proof.Pieces
import proofs.«175267_j56556129354082_1_alg».proof.Proof.Accum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- Point `n`'s query block (any filler past the grid, which nothing reads). -/
def blk0 (c : Dev nD) (n : ℕ) : Vec F S1x1x512x3 .f32 :=
  if h : n < cfg0.N then iblk m c 0 ⟨n, h⟩ else broadcast S1x1x512x3 (Scalar.ofBits .f32 0x00000000#32)
/-- Point `n`'s key block. -/
def blk1 (c : Dev nD) (n : ℕ) : Vec F S1x1x2048x3 .f32 :=
  if h : n < cfg0.N then iblk m c 1 ⟨n, h⟩ else broadcast S1x1x2048x3 (Scalar.ofBits .f32 0x00000000#32)

theorem blk0_eq (c : Dev nD) (n : ℕ) (h : n < cfg0.N) : blk0 m c n = iblk m c 0 ⟨n, h⟩ := dif_pos h
theorem blk1_eq (c : Dev nD) (n : ℕ) (h : n < cfg0.N) : blk1 m c n = iblk m c 1 ⟨n, h⟩ := dif_pos h

/-- One step of the carried scratch, spelled out. -/
theorem scr_step (X0 : ℕ → Vec F S1x1x512x3 .f32) (X1 : ℕ → Vec F S1x1x2048x3 .f32) (n : ℕ) : scr X0 X1 (n + 1)
    = (k0_pay1 (k0_pay7 (X0 (n + 1)) (X1 (n + 1))) (if (n + 1) % 4 = 0 then k0_pay5 (F := F) else (scr X0 X1 n).1),
      if (n + 1) % 4 = 3 then
        k0_pay3 (k0_pay1 (k0_pay7 (X0 (n + 1)) (X1 (n + 1))) (if (n + 1) % 4 = 0 then k0_pay5 (F := F) else (scr X0 X1 n).1))
          (k0_pay2 (k0_pay8 (X0 (n + 1)) (X1 (n + 1))) (scr X0 X1 n).2)
      else k0_pay2 (k0_pay8 (X0 (n + 1)) (X1 (n + 1))) (scr X0 X1 n).2) := rfl

/-- The first point: both scratch buffers restart. -/
theorem outsAt_scr_zero (c : Dev nD) (h : 0 < cfg0.N) : (outsAt0 m c 0 h).2 = scr (blk0 m c) (blk1 m c) 0 := by
  have h0 : (0 : ℕ) % 4 = 0 := rfl
  have h1 : (0 : ℕ) % 64 = 0 := rfl
  have h2 : ¬(0 : ℕ) % 4 = 3 := by decide
  have h3 : ¬(0 : ℕ) % 64 = 63 := by decide
  refine (congrArg Prod.snd (outsAt0_A m c ⟨0, h⟩ h0 h1 h2 h3)).trans ?_
  rw [scr_zero, blk0_eq m c 0 h, blk1_eq m c 0 h]
  exact congrArg₂ Prod.mk
    (sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) ((hcond0_0 ⟨0, h⟩).mpr h0) ((hcond0_1 ⟨0, h⟩).mpr h1) (fun hh => h2 ((hcond0_2 ⟨0, h⟩).mp hh)) (fun hh => h3 ((hcond0_3 ⟨0, h⟩).mp hh)) (iblk m c 0 ⟨0, h⟩) (iblk m c 1 ⟨0, h⟩))
    (sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) ((hcond0_0 ⟨0, h⟩).mpr h0) ((hcond0_1 ⟨0, h⟩).mpr h1) (fun hh => h2 ((hcond0_2 ⟨0, h⟩).mp hh)) (fun hh => h3 ((hcond0_3 ⟨0, h⟩).mp hh)) (iblk m c 0 ⟨0, h⟩) (iblk m c 1 ⟨0, h⟩))

/-- A later point: the case its position selects continues from what the point before left. -/
theorem outsAt_scr_succ (c : Dev nD) (n : ℕ) (h : n + 1 < cfg0.N)
    (ih : (outsAt0 m c n (Nat.lt_of_succ_lt h)).2 = scr (blk0 m c) (blk1 m c) n) :
    (outsAt0 m c (n + 1) h).2 = scr (blk0 m c) (blk1 m c) (n + 1) := by
  have hN : cfg0.N = 64 := N_0
  by_cases h0 : (n + 1) % 4 = 0
  · have h1 : ¬(n + 1) % 64 = 0 := by omega
    have h2 : ¬(n + 1) % 4 = 3 := by omega
    have h3 : ¬(n + 1) % 64 = 63 := by omega
    refine (congrArg Prod.snd (outsAt0_D m c ⟨n + 1, h⟩ h0 h1 h2 h3)).trans ?_
    rw [scr_step, blk0_eq m c (n + 1) h, blk1_eq m c (n + 1) h, ← ih, if_pos h0, if_neg h2]
    exact congrArg₂ Prod.mk
      (sout_D_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) ((hcond0_0 ⟨n + 1, h⟩).mpr h0) (fun hh => h1 ((hcond0_1 ⟨n + 1, h⟩).mp hh)) (fun hh => h2 ((hcond0_2 ⟨n + 1, h⟩).mp hh)) (fun hh => h3 ((hcond0_3 ⟨n + 1, h⟩).mp hh)) (iblk m c 0 ⟨n + 1, h⟩) (iblk m c 1 ⟨n + 1, h⟩) (outsAt0 m c n (Nat.lt_of_succ_lt h)).2.2)
      (sout_D_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) ((hcond0_0 ⟨n + 1, h⟩).mpr h0) (fun hh => h1 ((hcond0_1 ⟨n + 1, h⟩).mp hh)) (fun hh => h2 ((hcond0_2 ⟨n + 1, h⟩).mp hh)) (fun hh => h3 ((hcond0_3 ⟨n + 1, h⟩).mp hh)) (iblk m c 0 ⟨n + 1, h⟩) (iblk m c 1 ⟨n + 1, h⟩) (outsAt0 m c n (Nat.lt_of_succ_lt h)).2.2)
  · have h1 : ¬(n + 1) % 64 = 0 := by omega
    by_cases h2 : (n + 1) % 4 = 3
    · by_cases h3 : (n + 1) % 64 = 63
      ·
        refine (congrArg Prod.snd (outsAt0_E m c ⟨n + 1, h⟩ h0 h1 h2 h3)).trans ?_
        rw [scr_step, blk0_eq m c (n + 1) h, blk1_eq m c (n + 1) h, ← ih, if_neg h0, if_pos h2]
        exact congrArg₂ Prod.mk
          (sout_E_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) ((hcond0_2 ⟨n + 1, h⟩).mpr h2) ((hcond0_3 ⟨n + 1, h⟩).mpr h3) (iblk m c 0 ⟨n + 1, h⟩) (iblk m c 1 ⟨n + 1, h⟩) (outsAt0 m c n (Nat.lt_of_succ_lt h)).2.1 (outsAt0 m c n (Nat.lt_of_succ_lt h)).2.2)
          (sout_E_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) ((hcond0_2 ⟨n + 1, h⟩).mpr h2) ((hcond0_3 ⟨n + 1, h⟩).mpr h3) (iblk m c 0 ⟨n + 1, h⟩) (iblk m c 1 ⟨n + 1, h⟩) (outsAt0 m c n (Nat.lt_of_succ_lt h)).2.1 (outsAt0 m c n (Nat.lt_of_succ_lt h)).2.2)
      ·
        refine (congrArg Prod.snd (outsAt0_C m c ⟨n + 1, h⟩ h0 h1 h2 h3)).trans ?_
        rw [scr_step, blk0_eq m c (n + 1) h, blk1_eq m c (n + 1) h, ← ih, if_neg h0, if_pos h2]
        exact congrArg₂ Prod.mk
          (sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) ((hcond0_2 ⟨n + 1, h⟩).mpr h2) (fun hh => h3 ((hcond0_3 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2)
          (sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) ((hcond0_2 ⟨n + 1, h⟩).mpr h2) (fun hh => h3 ((hcond0_3 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2)
    · have h3 : ¬(n + 1) % 64 = 63 := by omega
      refine (congrArg Prod.snd (outsAt0_B m c ⟨n + 1, h⟩ h0 h1 h2 h3)).trans ?_
      rw [scr_step, blk0_eq m c (n + 1) h, blk1_eq m c (n + 1) h, ← ih, if_neg h0, if_neg h2]
      exact congrArg₂ Prod.mk
        (sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (fun hh => h2 ((hcond0_2 ⟨n + 1, h⟩).mp hh)) (fun hh => h3 ((hcond0_3 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2)
        (sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (fun hh => h2 ((hcond0_2 ⟨n + 1, h⟩).mp hh)) (fun hh => h3 ((hcond0_3 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2)

/-- After every point the carried scratch holds the body's arithmetic applied point after point. -/
theorem outsAt_scr (c : Dev nD) : ∀ (n : ℕ) (h : n < cfg0.N), (outsAt0 m c n h).2 = scr (blk0 m c) (blk1 m c) n
  | 0, h => outsAt_scr_zero m c h
  | n + 1, h => outsAt_scr_succ m c n h (outsAt_scr c n (Nat.lt_of_succ_lt h))

/-- At the last point the output block takes the final total divided by the count. -/
theorem outsAt_fst_last (c : Dev nD) (n : ℕ) (h : n + 1 < cfg0.N) (h2 : (n + 1) % 4 = 3) (h3 : (n + 1) % 64 = 63) :
    (outsAt0 m c (n + 1) h).1 = k0_pay4 (scr (blk0 m c) (blk1 m c) (n + 1)).2 := by
  have h0 : ¬(n + 1) % 4 = 0 := by omega
  have h1 : ¬(n + 1) % 64 = 0 := by omega
  have ih := outsAt_scr m c n (Nat.lt_of_succ_lt h)
  refine (congrArg Prod.fst (outsAt0_E m c ⟨n + 1, h⟩ h0 h1 h2 h3)).trans ?_
  rw [scr_step, blk0_eq m c (n + 1) h, blk1_eq m c (n + 1) h, ← ih, if_neg h0, if_pos h2]
  exact out_E_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) ((hcond0_2 ⟨n + 1, h⟩).mpr h2) ((hcond0_3 ⟨n + 1, h⟩).mpr h3) (iblk m c 0 ⟨n + 1, h⟩) (iblk m c 1 ⟨n + 1, h⟩) (outsAt0 m c n (Nat.lt_of_succ_lt h)).2.1 (outsAt0 m c n (Nat.lt_of_succ_lt h)).2.2

/-- The last point. -/
abbrev tLast : Fin cfg0.N := ⟨62 + 1, by rw [show cfg0.N = 64 from N_0]; decide⟩

/-- What the last point stores into the one-entry output block: the final total divided by the count. -/
def resBlock (c : Dev nD) : Vec F S1x1 .f32 := k0_pay4 (scr (blk0 m c) (blk1 m c) (62 + 1)).2

/-- The result array's contents after the run: its one block. -/
abbrev resArr (c : Dev nD) : Buf (Elt F) ((c : Thread nD τ).loc main_v4) := resBlock m c

/-- The output window's block index is (0, 0) at every point. -/
theorem idx2_zero : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The one write-back, at the last point, writes the block, and block (0, 0) of the [1, 1] array is the array. -/
theorem flushed_eq (c : Dev nD) (t : Fin cfg0.N) (hf : (cfg0.win 2).flush t = true) :
    (dats m 0 c).flushed 2 t = ((cfg0.win 2).blk t).view.read (Elt F) (resArr m c) := by
  have hN : cfg0.N = 64 := N_0
  have h63 : t.val = 62 + 1 := by have := (flush0_2 t).mp hf; have := t.isLt; omega
  have hout : (outsAt0 m c t.val t.isLt).1 = resBlock m c := by
    obtain ⟨n, hn⟩ := t
    dsimp only at h63
    subst h63
    exact outsAt_fst_last m c 62 hn (by decide) (by decide)
  show (cfg0.win 2).cut (grid0.coords t) ((dats m 0 c).after 2 t) = _
  rw [after0_2, hout]
  obtain ⟨e0, e1⟩ := idx2_zero t
  funext j
  show resBlock m c j = resBlock m c (((cfg0.win 2).blk t).view.emb j)
  refine congrArg (resBlock m c) (funext fun a => Fin.ext ?_)
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- So the result array ends at the block (the last point's block covers it). -/
theorem final_o (c : Dev nD) : (dats m 0 c).arrAt 2 cfg0.N = resArr m c :=
  (dats m 0 c).arrAt_eq_of_cover 2 (resArr m c) (fun t hf => flushed_eq m c t hf) fun i =>
    ⟨tLast, (flush0_2 tLast).mpr rfl, by
      obtain ⟨e0, e1⟩ := idx2_zero tLast
      show i ∈ ((View.whole main_v4).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast (0 : Fin 2) * 1 ≤ (i 0 : Nat) ∧ (i 0 : Nat) < win0_2.index tLast (0 : Fin 2) * 1 + 1
        omega
      | ⟨1, _⟩ =>
        show win0_2.index tLast (1 : Fin 2) * 1 ≤ (i 1 : Nat) ∧ (i 1 : Nat) < win0_2.index tLast (1 : Fin 2) * 1 + 1
        omega⟩

/-- The reshape after the region hands the array's one entry out as the scalar result. -/
theorem tail_eq (c : Dev nD) :
    Pipeline.afterTail₀ cfgs (dats m) 0 (V0 m) [hostOps1] c main_v5 = shapeCast S_ (resArr m c) shapeCasts_S1x1_S_ := by
  have hw := (Pipeline.withArrays_arr spec0 launch0.win.arr_inj c (V0 m c) (fun w => (dats m 0 c).arrAt w (cfgs 0).N) 2).trans (final_o m c)
  unfold Pipeline.afterTail₀
  show StableHlo.after hostOps1 _ (Proc.devRef .tc main_v5) = _
  after_results
  funext i
  exact congrArg (fun x => shapeCast S_ x shapeCasts_S1x1_S_ i) hw

/-- The run, read: the scalar result at the last point's quotient, the arguments unchanged. -/
theorem run : θ_run defs (onTc (τ := τ) (main (F := F))) ⟨m, fun _ => 0, ρ⟩ fun r => ∀ c : Dev nD,
      r.2.mem ((c.tc : Thread nD τ).loc main_v5) = shapeCast S_ (resArr m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.Blocks.lean ====
/-
  The input blocks read off the argument arrays.

  Before the region the two arguments f32[8, 4096, 3] are regrouped by chunk into f32[2, 8, 2048, 3]: entry
  (chunk, batch, row, coordinate) is entry (batch, 2048·chunk + row, coordinate) of the argument.  At the grid point of
  (chunk, batch, tile) the query window holds rows [512·tile, 512·tile + 512) of that (chunk, batch) slab of the first
  array, and the key window all 2048 rows of the slab of the second.
-/
import proofs.«175267_j56556129354082_1_alg».proof.Proof.Gen.KernelIdeal.Frame
import proofs.«175267_j56556129354082_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- A grid point's position gives its (chunk, batch, tile): the query window's block indices. -/
theorem idx0_facts : ∀ t : Fin cfg0.N, win0_0.index t 0 = t.val / 32 ∧ win0_0.index t 1 = t.val / 4 % 8
    ∧ win0_0.index t 2 = t.val % 4 ∧ win0_0.index t 3 = 0 :=
  (by decide +kernel : ∀ t : Fin grid0.N, win0_0.index t 0 = t.val / 32 ∧ win0_0.index t 1 = t.val / 4 % 8
    ∧ win0_0.index t 2 = t.val % 4 ∧ win0_0.index t 3 = 0)

/-- The key window's block indices: the whole (chunk, batch) slab. -/
theorem idx1_facts : ∀ t : Fin cfg0.N, win0_1.index t 0 = t.val / 32 ∧ win0_1.index t 1 = t.val / 4 % 8
    ∧ win0_1.index t 2 = 0 ∧ win0_1.index t 3 = 0 :=
  (by decide +kernel : ∀ t : Fin grid0.N, win0_1.index t 0 = t.val / 32 ∧ win0_1.index t 1 = t.val / 4 % 8
    ∧ win0_1.index t 2 = 0 ∧ win0_1.index t 3 = 0)

/-- The first operand as the region finds it: the first argument, rows regrouped by chunk. -/
theorem V_v2 (c : Dev nD) : (V m c main_v2 : S2x8x2048x3.Idx → Elt F .f32)
    = transpose S2x8x2048x3 [1, 0, 2, 3] (shapeCast S8x2x2048x3 (m ((c : Thread nD τ).loc main_arg0)) shapeCasts_S8x4096x3_S8x2x2048x3)
        transposes_S8x2x2048x3_S2x8x2048x3_1_0_2_3 := by
  show StableHlo.after hostOps0 (fun b => m (c, b)) (Proc.devRef .tc main_v2) = _
  after_results
  rfl

/-- The second operand likewise, from the second argument. -/
theorem V_v3 (c : Dev nD) : (V m c main_v3 : S2x8x2048x3.Idx → Elt F .f32)
    = transpose S2x8x2048x3 [1, 0, 2, 3] (shapeCast S8x2x2048x3 (m ((c : Thread nD τ).loc main_arg1)) shapeCasts_S8x4096x3_S8x2x2048x3)
        transposes_S8x2x2048x3_S2x8x2048x3_1_0_2_3 := by
  show StableHlo.after hostOps0 (fun b => m (c, b)) (Proc.devRef .tc main_v3) = _
  after_results
  rfl

/-- Entry (chunk, batch, row, coordinate) of a regrouped array is entry (batch, 2048·chunk + row, coordinate) of the argument. -/
theorem regroup_apply (A : S8x4096x3.Idx → Elt F .f32) (cc : Fin 2) (bb : Fin 8) (p : Fin 2048) (d : Fin 3) :
    transpose S2x8x2048x3 [1, 0, 2, 3] (shapeCast S8x2x2048x3 A shapeCasts_S8x4096x3_S8x2x2048x3)
        transposes_S8x2x2048x3_S2x8x2048x3_1_0_2_3 (ix4 cc bb p d) = A (Chamfer.pt cc bb p d) := by
  refine (transpose_apply [1, 0, 2, 3] _ transposes_S8x2x2048x3_S2x8x2048x3_1_0_2_3 (ix4 cc bb p d) (ix4 bb cc p d) (fun b => ?_)).trans ?_
  · match b with
    | ⟨0, _⟩ => rfl
    | ⟨1, _⟩ => rfl
    | ⟨2, _⟩ => rfl
    | ⟨3, _⟩ => rfl
  · exact shapeCast_apply A shapeCasts_S8x4096x3_S8x2x2048x3 _ _ (by
      rw [Shape.rowMajor_val_three, Shape.rowMajor_val_four]
      show (bb.val * 4096 + (2048 * cc.val + p.val)) * 3 + d.val = ((bb.val * 2 + cc.val) * 2048 + p.val) * 3 + d.val
      omega)

/-- Row `r` of the query block at a point of (chunk, batch, tile) is query `512·tile + r` of that chunk and batch. -/
theorem blockRead0 (c : Dev nD) (t : Fin cfg0.N) (cc : Fin 2) (bb : Fin 8) (tt : Fin 4)
    (ht : t.val = 32 * cc.val + 4 * bb.val + tt.val) (r : Fin 512) (d : Fin 3) :
    iblk m c 0 t (ix4 (0 : Fin 1) (0 : Fin 1) r d)
      = m ((c : Thread nD τ).loc main_arg0) (Chamfer.pt cc bb (⟨512 * tt.val + r.val, by have := tt.isLt; have := r.isLt; omega⟩ : Fin 2048) d) := by
  obtain ⟨e0, e1, e2, e3⟩ := idx0_facts t
  have hc := cc.isLt
  have hb := bb.isLt
  have htt := tt.isLt
  unfold iblk
  rw [View.read_apply]
  show V m c main_v2 _ = _
  refine Eq.trans (congrArg (V m c main_v2) (funext fun a => Fin.ext ?_))
    ((congrFun (V_v2 m c) _).trans (regroup_apply _ cc bb (⟨512 * tt.val + r.val, by have := r.isLt; omega⟩ : Fin 2048) d))
  match a with
  | ⟨0, _⟩ => show win0_0.index t 0 * 1 + 1 * 0 = cc.val; omega
  | ⟨1, _⟩ => show win0_0.index t 1 * 1 + 1 * 0 = bb.val; omega
  | ⟨2, _⟩ => show win0_0.index t 2 * 512 + 1 * r.val = 512 * tt.val + r.val; omega
  | ⟨3, _⟩ => show win0_0.index t 3 * 3 + 1 * d.val = d.val; omega

/-- Row `j` of the key block at a point of (chunk, batch, ·) is key `j` of that chunk and batch. -/
theorem blockRead1 (c : Dev nD) (t : Fin cfg0.N) (cc : Fin 2) (bb : Fin 8) (tt : Fin 4)
    (ht : t.val = 32 * cc.val + 4 * bb.val + tt.val) (j : Fin 2048) (d : Fin 3) :
    iblk m c 1 t (ix4 (0 : Fin 1) (0 : Fin 1) j d) = m ((c : Thread nD τ).loc main_arg1) (Chamfer.pt cc bb j d) := by
  obtain ⟨e0, e1, e2, e3⟩ := idx1_facts t
  have hc := cc.isLt
  have hb := bb.isLt
  have htt := tt.isLt
  unfold iblk
  rw [View.read_apply]
  show V m c main_v3 _ = _
  refine Eq.trans (congrArg (V m c main_v3) (funext fun a => Fin.ext ?_))
    ((congrFun (V_v3 m c) _).trans (regroup_apply _ cc bb j d))
  match a with
  | ⟨0, _⟩ => show win0_1.index t 0 * 1 + 1 * 0 = cc.val; omega
  | ⟨1, _⟩ => show win0_1.index t 1 * 1 + 1 * 0 = bb.val; omega
  | ⟨2, _⟩ => show win0_1.index t 2 * 2048 + 1 * j.val = j.val; omega
  | ⟨3, _⟩ => show win0_1.index t 3 * 3 + 1 * d.val = d.val; omega

end Cert.KernelIdeal.KValue

end
-- ==== Proof.Algebra.lean ====
/-
  The two programs' results agree as extended reals.

  The kernel keeps one running total over its 64 grid points and divides once; the reference takes two means per
  chunk and adds them.  With all distances nonnegative, both are
  ((rowSum 0 + rowSum 1) + (colSum 0 + colSum 1)) / cnt, because division by a positive real distributes over a sum
  of nonnegative extended reals.
-/
import proofs.«175267_j56556129354082_1_alg».proof.Proof.Spec

noncomputable section

namespace Chamfer

open Idealize.ShloMosaic

/-! ## The least of finitely many -/

/-- The universal property of the minimum: a bound lies below it exactly when it lies below every entry. -/
theorem le_fmin_iff {n : ℕ} (f : Fin n → EReal) (x : EReal) : x ≤ fmin f ↔ ∀ k, x ≤ f k := by
  unfold fmin
  rw [Finset.le_fold_min]
  simp

theorem fmin_nonneg {n : ℕ} (f : Fin n → EReal) (h : ∀ k, 0 ≤ f k) : 0 ≤ fmin f :=
  (le_fmin_iff f 0).2 h

/-! ## Rows: a row of 2048 is a tile of four and a row of 512 within the tile -/

def tileEquiv : Fin 4 × Fin 512 ≃ Fin 2048 where
  toFun p := ⟨512 * p.1.val + p.2.val, by have := p.1.isLt; have := p.2.isLt; omega⟩
  invFun i := (⟨i.val / 512, by have := i.isLt; omega⟩, ⟨i.val % 512, by omega⟩)
  left_inv p := by
    rcases p with ⟨⟨t, ht⟩, ⟨r, hr⟩⟩
    simp only [Prod.mk.injEq, Fin.mk.injEq]
    constructor <;> omega
  right_inv i := by
    rcases i with ⟨i, hi⟩
    simp only [Fin.mk.injEq]
    omega

theorem sum_tiles (G : Fin 2048 → EReal) :
    ∑ t : Fin 4, ∑ r : Fin 512, G (tileEquiv (t, r)) = ∑ i : Fin 2048, G i :=
  (Fintype.sum_prod_type (fun p => G (tileEquiv p))).symm.trans (tileEquiv.sum_comp G)

/-! ## Regrouping a sum over the grid points -/

theorem sum_range_mul (F : ℕ → EReal) (k : ℕ) : ∀ a : ℕ,
    ∑ m ∈ Finset.range (a * k), F m = ∑ p ∈ Finset.range a, ∑ t ∈ Finset.range k, F (k * p + t)
  | 0 => by simp
  | a + 1 => by
    rw [Nat.succ_mul, Finset.sum_range_add, sum_range_mul F k a, Finset.sum_range_succ, Nat.mul_comm a k]

theorem sum_range_grid (F : ℕ → EReal) :
    ∑ m ∈ Finset.range 64, F m
      = ∑ c : Fin 2, ∑ b : Fin 8, ∑ t : Fin 4, F (32 * c.val + 4 * b.val + t.val) := by
  have h1 : ∑ m ∈ Finset.range 64, F m
      = ∑ c ∈ Finset.range 2, ∑ u ∈ Finset.range 32, F (32 * c + u) := sum_range_mul F 32 2
  have h2 : ∀ c : ℕ, ∑ u ∈ Finset.range 32, F (32 * c + u)
      = ∑ b ∈ Finset.range 8, ∑ t ∈ Finset.range 4, F (32 * c + (4 * b + t)) :=
    fun c => sum_range_mul (fun u => F (32 * c + u)) 4 8
  rw [h1]
  simp only [h2, Finset.sum_range, add_assoc]

/-! ## The running total in closed form -/

theorem tot_eq (T : ℕ → Fin 512 → Fin 2048 → EReal) : ∀ n : ℕ,
    tot T n = ∑ m ∈ Finset.range (n + 1), (rs T m + if m % 4 = 3 then ∑ j : Fin 2048, cm T m j else 0)
  | 0 => by simp [tot]
  | n + 1 => by
    rw [Finset.sum_range_succ, ← tot_eq T n]
    by_cases h : (n + 1) % 4 = 3
    · simp only [tot, h, if_true, add_assoc]
    · simp only [tot, h, if_false, add_zero]

/-! ## The running column minimum -/

theorem cm_restart (T : ℕ → Fin 512 → Fin 2048 → EReal) (j : Fin 2048) :
    ∀ n : ℕ, n % 4 = 0 → cm T n j = tm T n j
  | 0, _ => by simp [cm]
  | n + 1, h => by simp [cm, h]

theorem cm_step (T : ℕ → Fin 512 → Fin 2048 → EReal) (j : Fin 2048) (n : ℕ) (h : (n + 1) % 4 ≠ 0) :
    cm T (n + 1) j = min (cm T n j) (tm T (n + 1) j) := by
  simp [cm, h]

/-- After the four tiles of one (chunk, batch) the running minimum is the least of the four tile minima. -/
theorem cm_last (T : ℕ → Fin 512 → Fin 2048 → EReal) (n0 : ℕ) (h0 : n0 % 4 = 0) (j : Fin 2048) :
    cm T (n0 + 3) j
      = min (min (min (tm T n0 j) (tm T (n0 + 1) j)) (tm T (n0 + 2) j)) (tm T (n0 + 3) j) := by
  rw [cm_step T j (n0 + 2) (by omega), cm_step T j (n0 + 1) (by omega), cm_step T j n0 (by omega),
    cm_restart T j n0 h0]

section Join

variable (D : Fin 2 → Fin 8 → Fin 2048 → Fin 2048 → EReal)
variable (T : ℕ → Fin 512 → Fin 2048 → EReal)
variable (hT : ∀ (c : Fin 2) (b : Fin 8) (t : Fin 4) (r : Fin 512) (j : Fin 2048),
      T (32 * c.val + 4 * b.val + t.val) r j = D c b (tileEquiv (t, r)) j)

include hT

/-- The column minimum over all 2048 rows of a (chunk, batch), reached at its last tile. -/
theorem colmin_eq (c : Fin 2) (b : Fin 8) (j : Fin 2048) :
    cm T (32 * c.val + 4 * b.val + 3) j = fmin (fun i => D c b i j) := by
  rw [cm_last T (32 * c.val + 4 * b.val) (by omega) j]
  apply eq_of_forall_le_iff
  intro x
  simp only [le_min_iff, tm, le_fmin_iff]
  constructor
  · rintro ⟨⟨⟨h0, h1⟩, h2⟩, h3⟩ i
    obtain ⟨⟨t, r⟩, rfl⟩ := tileEquiv.surjective i
    fin_cases t
    · exact (h0 r).trans_eq (hT c b 0 r j)
    · exact (h1 r).trans_eq (hT c b 1 r j)
    · exact (h2 r).trans_eq (hT c b 2 r j)
    · exact (h3 r).trans_eq (hT c b 3 r j)
  · intro h
    exact ⟨⟨⟨fun r => (h _).trans_eq (hT c b 0 r j).symm, fun r => (h _).trans_eq (hT c b 1 r j).symm⟩,
      fun r => (h _).trans_eq (hT c b 2 r j).symm⟩, fun r => (h _).trans_eq (hT c b 3 r j).symm⟩

/-- The four tiles' sums of row minima make the (chunk, batch)'s sum over all 2048 rows. -/
theorem rs_grid (c : Fin 2) (b : Fin 8) :
    ∑ t : Fin 4, rs T (32 * c.val + 4 * b.val + t.val) = ∑ i : Fin 2048, fmin (fun j => D c b i j) := by
  unfold rs
  simp only [hT]
  exact sum_tiles (fun i => fmin (fun j => D c b i j))

/-- Of a (chunk, batch)'s four points only the last adds column minima, and it adds the sum of the column minima
    over all 2048 rows. -/
theorem cs_grid (c : Fin 2) (b : Fin 8) :
    ∑ t : Fin 4, (if (32 * c.val + 4 * b.val + t.val) % 4 = 3
        then ∑ j : Fin 2048, cm T (32 * c.val + 4 * b.val + t.val) j else 0)
      = ∑ j : Fin 2048, fmin (fun i => D c b i j) := by
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  have e0 : ¬ (32 * c.val + 4 * b.val + 0) % 4 = 3 := by omega
  have e1 : ¬ (32 * c.val + 4 * b.val + 1) % 4 = 3 := by omega
  have e2 : ¬ (32 * c.val + 4 * b.val + 2) % 4 = 3 := by omega
  have e3 : (32 * c.val + 4 * b.val + 3) % 4 = 3 := by omega
  rw [Fin.sum_univ_four, v0, v1, v2, v3, if_neg e0, if_neg e1, if_neg e2, if_pos e3, zero_add, zero_add, zero_add]
  exact Finset.sum_congr rfl (fun j _ => colmin_eq D T hT c b j)

/-- The kernel's total after its last point: both chunks' row sums and column sums. -/
theorem tot_63 : tot T 63 = (rowSum D 0 + rowSum D 1) + (colSum D 0 + colSum D 1) := by
  have h : tot T 63 = ∑ m ∈ Finset.range 64,
      (rs T m + if m % 4 = 3 then ∑ j : Fin 2048, cm T m j else 0) := tot_eq T 63
  rw [h, Finset.sum_add_distrib, sum_range_grid (fun m => rs T m),
    sum_range_grid (fun m => if m % 4 = 3 then ∑ j : Fin 2048, cm T m j else 0)]
  simp only [rs_grid D T hT, cs_grid D T hT, Fin.sum_univ_two]
  rfl

end Join

/-! ## Division by the count -/

theorem div_cnt (x : EReal) : Ideal.div x cnt = x * ((1 / 16384 : ℝ) : EReal) := by
  rw [cnt_eq]
  exact Ideal.div_coe (by norm_num) x

theorem rowSum_nonneg (D : Fin 2 → Fin 8 → Fin 2048 → Fin 2048 → EReal) (hD : ∀ c b i j, 0 ≤ D c b i j)
    (c : Fin 2) : 0 ≤ rowSum D c :=
  Finset.sum_nonneg fun b _ => Finset.sum_nonneg fun i _ => fmin_nonneg _ fun j => hD c b i j

theorem colSum_nonneg (D : Fin 2 → Fin 8 → Fin 2048 → Fin 2048 → EReal) (hD : ∀ c b i j, 0 ≤ D c b i j)
    (c : Fin 2) : 0 ≤ colSum D c :=
  Finset.sum_nonneg fun b _ => Finset.sum_nonneg fun j _ => fmin_nonneg _ fun i => hD c b i j

/-- The kernel's one total divided once is the reference's two means per chunk, added. -/
theorem kerVal_eq_refVal (D : Fin 2 → Fin 8 → Fin 2048 → Fin 2048 → EReal) (hD : ∀ c b i j, 0 ≤ D c b i j)
    (T : ℕ → Fin 512 → Fin 2048 → EReal)
    (hT : ∀ (c : Fin 2) (b : Fin 8) (t : Fin 4) (r : Fin 512) (j : Fin 2048),
      T (32 * c.val + 4 * b.val + t.val) r j = D c b (⟨512 * t.val + r.val, by have := t.isLt; have := r.isLt; omega⟩ : Fin 2048) j) :
    kerVal T = refVal D := by
  have hR := rowSum_nonneg D hD
  have hC := colSum_nonneg D hD
  unfold kerVal refVal chunk
  rw [tot_63 D T hT]
  simp only [div_cnt, zero_add]
  rw [EReal.right_distrib_of_nonneg (add_nonneg (hR 0) (hR 1)) (add_nonneg (hC 0) (hC 1)),
    EReal.right_distrib_of_nonneg (hR 0) (hR 1), EReal.right_distrib_of_nonneg (hC 0) (hC 1)]
  exact add_add_add_comm _ _ _ _

end Chamfer

end
-- ==== Proof.Dist.lean ====
/-
  The two spellings of the distance between two points of ℝ³ agree when every coordinate is a real number:
  |x|² + |y|² − 2 x·y is the sum of the squared coordinate differences, a nonnegative real, so clamping it at
  zero changes nothing and both roots are the root of one and the same real.
-/
import proofs.«175267_j56556129354082_1_alg».proof.Proof.Spec

noncomputable section

namespace Chamfer

open Idealize.ShloMosaic

/-- Both distances are the root of one nonnegative real, the sum of the squared coordinate differences. -/
theorem dists_real (X Y : SArg.Idx → EReal) (hX : ∀ i, ∃ r : ℝ, X i = (r : EReal))
    (hY : ∀ i, ∃ r : ℝ, Y i = (r : EReal)) (c : Fin 2) (b : Fin 8) (i j : Fin 2048) :
    ∃ s : ℝ, 0 ≤ s ∧ dRef X Y c b i j = Ideal.sqrt (s : EReal) ∧ dKer X Y c b i j = Ideal.sqrt (s : EReal) := by
  obtain ⟨x0, h0⟩ := hX (pt c b i 0)
  obtain ⟨x1, h1⟩ := hX (pt c b i 1)
  obtain ⟨x2, h2⟩ := hX (pt c b i 2)
  obtain ⟨y0, k0⟩ := hY (pt c b j 0)
  obtain ⟨y1, k1⟩ := hY (pt c b j 1)
  obtain ⟨y2, k2⟩ := hY (pt c b j 2)
  have hs : (0 : ℝ) ≤ (x0 - y0) * (x0 - y0) + (x1 - y1) * (x1 - y1) + (x2 - y2) * (x2 - y2) :=
    add_nonneg (add_nonneg (mul_self_nonneg _) (mul_self_nonneg _)) (mul_self_nonneg _)
  refine ⟨(x0 - y0) * (x0 - y0) + (x1 - y1) * (x1 - y1) + (x2 - y2) * (x2 - y2), hs, ?_, ?_⟩
  · unfold dRef
    rw [Fin.sum_univ_three, h0, h1, h2, k0, k1, k2, Ideal.ofBits_zero_f32, zero_add]
    simp only [← EReal.coe_sub, ← EReal.coe_mul, ← EReal.coe_add]
  · unfold dKer
    rw [Fin.sum_univ_three, Fin.sum_univ_three, Fin.sum_univ_three, h0, h1, h2, k0, k1, k2, two_eq,
      Ideal.ofBits_zero_f32]
    simp only [← EReal.coe_sub, ← EReal.coe_mul, ← EReal.coe_add]
    -- the expansion is the sum of squares
    have e : (x0 * x0 + x1 * x1 + x2 * x2 + (y0 * y0 + y1 * y1 + y2 * y2) - 2 * (x0 * y0 + x1 * y1 + x2 * y2) : ℝ)
        = (x0 - y0) * (x0 - y0) + (x1 - y1) * (x1 - y1) + (x2 - y2) * (x2 - y2) := by ring
    rw [e, ← EReal.coe_zero, max_eq_left (EReal.coe_le_coe_iff.2 hs)]

/-- The kernel's distance is the reference's. -/
theorem dKer_eq_dRef (X Y : SArg.Idx → EReal) (hX : ∀ i, ∃ r : ℝ, X i = (r : EReal))
    (hY : ∀ i, ∃ r : ℝ, Y i = (r : EReal)) (c : Fin 2) (b : Fin 8) (i j : Fin 2048) :
    dKer X Y c b i j = dRef X Y c b i j := by
  obtain ⟨s, -, hr, hk⟩ := dists_real X Y hX hY c b i j
  rw [hr, hk]

/-- A distance between real points is nonnegative: it is the real root of a nonnegative real. -/
theorem dRef_nonneg (X Y : SArg.Idx → EReal) (hX : ∀ i, ∃ r : ℝ, X i = (r : EReal))
    (hY : ∀ i, ∃ r : ℝ, Y i = (r : EReal)) (c : Fin 2) (b : Fin 8) (i j : Fin 2048) :
    0 ≤ dRef X Y c b i j := by
  obtain ⟨s, hs, hr, -⟩ := dists_real X Y hX hY c b i j
  rw [hr, Ideal.sqrt_coe, if_neg (not_lt.2 hs), ← EReal.coe_zero, EReal.coe_le_coe_iff]
  exact Real.sqrt_nonneg s

end Chamfer

end
-- ==== Proof.KernelValue.lean ====
/-
  The kernel's scalar result is the specification's value.

  Over the extended reals the last point's quotient is `Chamfer.kerVal` of the points' distance tiles; a tile entry is
  the kernel's form of the distance between a query and a key of the point's (chunk, batch), which on finite inputs is
  the reference's form; and the kernel's one running total, divided once, is the reference's sum of per-chunk means
  because all the summands are nonnegative.
-/
import proofs.«175267_j56556129354082_1_alg».proof.Proof.KernelRun
import proofs.«175267_j56556129354082_1_alg».proof.Proof.Blocks
import proofs.«175267_j56556129354082_1_alg».proof.Proof.Algebra
import proofs.«175267_j56556129354082_1_alg».proof.Proof.Dist

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ)

/-- The kernel's scalar result: the result array's one entry, handed out by the reshape after the region. -/
abbrev kresult (c : Dev nD) : Buf (Elt Ideal) ((c.tc : Thread nD τ).loc main_v5) :=
  shapeCast S_ (resArr m c) shapeCasts_S1x1_S_

/-- A point's distance tile, entry (r, j): the distance between query `512·tile + r` and key `j` of its (chunk, batch). -/
theorem tile_eq (c : Dev nD)
    (hX : ∀ i, ∃ r : ℝ, m ((c.tc : Thread nD τ).loc main_arg0) i = (r : EReal))
    (hY : ∀ i, ∃ r : ℝ, m ((c.tc : Thread nD τ).loc main_arg1) i = (r : EReal))
    (cc : Fin 2) (bb : Fin 8) (tt : Fin 4) (r : Fin 512) (j : Fin 2048) :
    tile (blk0 m c) (blk1 m c) (32 * cc.val + 4 * bb.val + tt.val) r j
      = Chamfer.dRef (m ((c.tc : Thread nD τ).loc main_arg0)) (m ((c.tc : Thread nD τ).loc main_arg1)) cc bb
          (⟨512 * tt.val + r.val, by have := tt.isLt; have := r.isLt; omega⟩ : Fin 2048) j := by
  have hlt : 32 * cc.val + 4 * bb.val + tt.val < cfg0.N := by
    rw [show cfg0.N = 64 from N_0]; have := cc.isLt; have := bb.isLt; have := tt.isLt; omega
  rw [← Chamfer.dKer_eq_dRef _ _ hX hY]
  unfold tile Chamfer.dKer
  rw [pay7_apply, blk0_eq m c _ hlt, blk1_eq m c _ hlt]
  simp only [blockRead0 m c ⟨_, hlt⟩ cc bb tt rfl, blockRead1 m c ⟨_, hlt⟩ cc bb tt rfl]

/-- The scalar result, on finite inputs, is the reference's value of the two argument arrays. -/
theorem result_eq (c : Dev nD)
    (hX : ∀ i, ∃ r : ℝ, m ((c.tc : Thread nD τ).loc main_arg0) i = (r : EReal))
    (hY : ∀ i, ∃ r : ℝ, m ((c.tc : Thread nD τ).loc main_arg1) i = (r : EReal)) (i : S_.Idx) :
    shapeCast S_ (resArr m c) shapeCasts_S1x1_S_ i
      = Chamfer.refVal (Chamfer.dRef (m ((c.tc : Thread nD τ).loc main_arg0)) (m ((c.tc : Thread nD τ).loc main_arg1))) := by
  refine (shapeCast_apply (resArr m c) shapeCasts_S1x1_S_ i (ix2 (0 : Fin 1) (0 : Fin 1)) ?_).trans ?_
  · show (S1x1.rowMajor (ix2 (0 : Fin 1) (0 : Fin 1))).val = (S_.rowMajor i).val
    rw [Shape.rowMajor_val_two]
    show 0 * 1 + 0 = (Shape.rowMajorPi _ i).val
    rw [Shape.rowMajorPi_zero]
  · show k0_pay4 (F := Ideal) _ (ix2 (0 : Fin 1) (0 : Fin 1)) = _
    rw [pay4_apply, (scr_spec (blk0 m c) (blk1 m c) (62 + 1)).2]
    exact Chamfer.kerVal_eq_refVal _ (Chamfer.dRef_nonneg _ _ hX hY) _ (tile_eq m c hX hY)

end Cert.KernelIdeal.KValue

end
-- ==== Proof.RefSide.lean ====
/-
  The reference program's result is the chamfer loss of the specification, taken at the reference's distances.

  The reference works chunk by chunk.  For a chunk it takes rows [2048 c, 2048 c + 2048) of both arrays, forms every
  (query, key) pair's coordinate differences, squares them, sums the three squares from zero and takes the root: the
  matrix of distances.  It then takes the least entry of each row and of each column (from +inf), sums each family of
  minima from zero, divides each sum by the count 8 * 2048 and adds the two quotients.  Last it adds zero, the first
  chunk's loss and the second chunk's.  Read index by index this is the specification's value.
-/
import proofs.«175267_j56556129354082_1_alg».proof.Proof.Spec
import proofs.«175267_j56556129354082_1_alg».proof.Proof.Gen.ReferenceIdeal.Read
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-- The two argument arrays, f32[8, 4096, 3], at the ideal values. -/
abbrev Arr : Type := (⟨S8x4096x3, .f32⟩ : BufTy).Contents (Elt Ideal)

/-- A matrix of distances, f32[8, 2048, 2048], at the ideal values. -/
abbrev Mat : Type := (⟨S8x2048x2048, .f32⟩ : BufTy).Contents (Elt Ideal)

/-! ## Which argument entries a distance reads

Entry (b, i, j, d) of the first chunk's broadcast difference reads coordinate d of query i of batch b from the
first array and coordinate d of key j of batch b from the second; the second chunk's reads rows 2048 further on. -/

theorem qIdx0 (b : Fin 8) (i j : Fin 2048) (d : Fin 3) :
    idx_main_v0 (idx_main_v2 (idx_main_v4 (idx_main_v8 (ix3 b i j) d))) = Chamfer.pt 0 b i d :=
  funext fun a => Fin.ext (by
    match a with
    | ⟨0, _⟩ => rfl
    | ⟨1, _⟩ => show i.val = 2048 * 0 + i.val; omega
    | ⟨2, _⟩ => rfl)

theorem kIdx0 (b : Fin 8) (i j : Fin 2048) (d : Fin 3) :
    idx_main_v1 (idx_main_v3 (idx_main_v5 (idx_main_v8 (ix3 b i j) d))) = Chamfer.pt 0 b j d :=
  funext fun a => Fin.ext (by
    match a with
    | ⟨0, _⟩ => rfl
    | ⟨1, _⟩ => show j.val = 2048 * 0 + j.val; omega
    | ⟨2, _⟩ => rfl)

theorem qIdx1 (b : Fin 8) (i j : Fin 2048) (d : Fin 3) :
    idx_main_v18 (idx_main_v20 (idx_main_v22 (idx_main_v26 (ix3 b i j) d))) = Chamfer.pt 1 b i d :=
  funext fun a => Fin.ext (by
    match a with
    | ⟨0, _⟩ => rfl
    | ⟨1, _⟩ => show 2048 + i.val = 2048 * 1 + i.val; omega
    | ⟨2, _⟩ => rfl)

theorem kIdx1 (b : Fin 8) (i j : Fin 2048) (d : Fin 3) :
    idx_main_v19 (idx_main_v21 (idx_main_v23 (idx_main_v26 (ix3 b i j) d))) = Chamfer.pt 1 b j d :=
  funext fun a => Fin.ext (by
    match a with
    | ⟨0, _⟩ => rfl
    | ⟨1, _⟩ => show 2048 + j.val = 2048 * 1 + j.val; omega
    | ⟨2, _⟩ => rfl)

/-! ## The distance matrices -/

/-- The first chunk's matrix is the specification's: the root of the sum from zero of the squared differences. -/
theorem dist0 (X Y : Arr) (b : Fin 8) (i j : Fin 2048) :
    val_main_v9 (F := Ideal) X Y (ix3 b i j) = Chamfer.dRef X Y 0 b i j := by
  rw [val_main_v9_apply, val_main_v8_apply]
  simp only [val_main_v7_apply, val_main_v6_apply, val_main_v4_apply, val_main_v5_apply, val_main_v2_apply,
    val_main_v3_apply, val_main_v0_apply, val_main_v1_apply, val_main_cst_apply, qIdx0, kIdx0]
  rfl

/-- The second chunk's matrix likewise. -/
theorem dist1 (X Y : Arr) (b : Fin 8) (i j : Fin 2048) :
    val_main_v27 (F := Ideal) X Y (ix3 b i j) = Chamfer.dRef X Y 1 b i j := by
  rw [val_main_v27_apply, val_main_v26_apply]
  simp only [val_main_v25_apply, val_main_v24_apply, val_main_v22_apply, val_main_v23_apply, val_main_v20_apply,
    val_main_v21_apply, val_main_v18_apply, val_main_v19_apply, val_main_cst_7_apply, qIdx1, kIdx1]
  rfl

/-! ## The minima over one axis

A minimum-reduce of a matrix over one axis, from an initial value that is +inf, is at (b, i) the least of the 2048
entries whose other two coordinates are (b, i): the inserted coordinate is the last for the reduce over axis 2 and the
middle one for the reduce over axis 1. -/

theorem lift_d2 (h : S8x2048x2048.Reduces [2] S8x2048) (b : Fin 8) (i k : Fin 2048) :
    h.lift (ix2 b i) k = ix3 b i k :=
  funext fun c => Fin.ext (by
    match c with
    | ⟨0, _⟩ => rfl
    | ⟨1, _⟩ => rfl
    | ⟨2, _⟩ => rfl)

theorem lift_d1 (h : S8x2048x2048.Reduces [1] S8x2048) (b : Fin 8) (j k : Fin 2048) :
    h.lift (ix2 b j) k = ix3 b k j :=
  funext fun c => Fin.ext (by
    match c with
    | ⟨0, _⟩ => rfl
    | ⟨1, _⟩ => rfl
    | ⟨2, _⟩ => rfl)

/-- The fold of the ideal minimum from the top element is the least element. -/
theorem fold_minimumf {n : ℕ} (f : Fin n → EReal) :
    (Finset.univ : Finset (Fin n)).fold (FloatOps.minimumf (F := Ideal) (φ := .f32)) ⊤ f = Chamfer.fmin f := rfl

/-- Over the last axis: the least entry of row i of batch b. -/
theorem rowMin (M : Mat) (init : (⟨S_, .f32⟩ : BufTy).Contents (Elt Ideal)) (hinit : ∀ i, init i = ⊤)
    (b : Fin 8) (i : Fin 2048) :
    Host.reduce (FloatOps.minimumf (F := Ideal) (φ := .f32)) M init reducesTo_S8x2048x2048_S8x2048_d2 h_S_ (ix2 b i)
      = Chamfer.fmin (fun j => M (ix3 b i j)) := by
  have h : S8x2048x2048.Reduces [2] S8x2048 := by decide
  rw [Host.reduce_eq_fold_single (FloatOps.minimumf (F := Ideal) (φ := .f32)) M init reducesTo_S8x2048x2048_S8x2048_d2 h h_S_, hinit]
  have hf : (M ∘ h.lift (ix2 b i)) = fun j : Fin 2048 => M (ix3 b i j) :=
    funext fun j => congrArg M (lift_d2 h b i j)
  rw [hf]
  exact fold_minimumf _

/-- Over the middle axis: the least entry of column j of batch b. -/
theorem colMin (M : Mat) (init : (⟨S_, .f32⟩ : BufTy).Contents (Elt Ideal)) (hinit : ∀ i, init i = ⊤)
    (b : Fin 8) (j : Fin 2048) :
    Host.reduce (FloatOps.minimumf (F := Ideal) (φ := .f32)) M init reducesTo_S8x2048x2048_S8x2048_d1 h_S_ (ix2 b j)
      = Chamfer.fmin (fun i => M (ix3 b i j)) := by
  have h : S8x2048x2048.Reduces [1] S8x2048 := by decide
  rw [Host.reduce_eq_fold_single (FloatOps.minimumf (F := Ideal) (φ := .f32)) M init reducesTo_S8x2048x2048_S8x2048_d1 h h_S_, hinit]
  have hf : (M ∘ h.lift (ix2 b j)) = fun i : Fin 2048 => M (ix3 b i j) :=
    funext fun i => congrArg M (lift_d1 h b j i)
  rw [hf]
  exact fold_minimumf _

/-! ## The sums of the minima, and the scalar tail

Each total sum runs from zero over all (batch, point) pairs, read as the double sum over the batches and the points. -/

/-- The first chunk's row minima, summed. -/
theorem rowSum0 (X Y : Arr) (i : S_.Idx) :
    val_main_v11 (F := Ideal) X Y i = 0 + Chamfer.rowSum (Chamfer.dRef X Y) 0 := by
  rw [val_main_v11_apply, val_main_cst_1_apply, Ideal.ofBits_def, Ideal.ofBits_zero_f32, sum_idx2]
  unfold Chamfer.rowSum
  refine congrArg (0 + ·) (Finset.sum_congr rfl fun b _ => Finset.sum_congr rfl fun q _ => ?_)
  unfold val_main_v10
  refine (rowMin (val_main_v9 (F := Ideal) X Y) (val_main_cst_0 (F := Ideal)) (fun _ => Chamfer.ofBits_inf) b q).trans ?_
  exact congrArg Chamfer.fmin (funext fun j => dist0 X Y b q j)

/-- The first chunk's column minima, summed. -/
theorem colSum0 (X Y : Arr) (i : S_.Idx) :
    val_main_v14 (F := Ideal) X Y i = 0 + Chamfer.colSum (Chamfer.dRef X Y) 0 := by
  rw [val_main_v14_apply, val_main_cst_4_apply, Ideal.ofBits_def, Ideal.ofBits_zero_f32, sum_idx2]
  unfold Chamfer.colSum
  refine congrArg (0 + ·) (Finset.sum_congr rfl fun b _ => Finset.sum_congr rfl fun k _ => ?_)
  unfold val_main_v13
  refine (colMin (val_main_v9 (F := Ideal) X Y) (val_main_cst_3 (F := Ideal)) (fun _ => Chamfer.ofBits_inf) b k).trans ?_
  exact congrArg Chamfer.fmin (funext fun q => dist0 X Y b q k)

/-- The second chunk's row minima, summed. -/
theorem rowSum1 (X Y : Arr) (i : S_.Idx) :
    val_main_v29 (F := Ideal) X Y i = 0 + Chamfer.rowSum (Chamfer.dRef X Y) 1 := by
  rw [val_main_v29_apply, val_main_cst_9_apply, Ideal.ofBits_def, Ideal.ofBits_zero_f32, sum_idx2]
  unfold Chamfer.rowSum
  refine congrArg (0 + ·) (Finset.sum_congr rfl fun b _ => Finset.sum_congr rfl fun q _ => ?_)
  unfold val_main_v28
  refine (rowMin (val_main_v27 (F := Ideal) X Y) (val_main_cst_8 (F := Ideal)) (fun _ => Chamfer.ofBits_inf) b q).trans ?_
  exact congrArg Chamfer.fmin (funext fun j => dist1 X Y b q j)

/-- The second chunk's column minima, summed. -/
theorem colSum1 (X Y : Arr) (i : S_.Idx) :
    val_main_v32 (F := Ideal) X Y i = 0 + Chamfer.colSum (Chamfer.dRef X Y) 1 := by
  rw [val_main_v32_apply, val_main_cst_12_apply, Ideal.ofBits_def, Ideal.ofBits_zero_f32, sum_idx2]
  unfold Chamfer.colSum
  refine congrArg (0 + ·) (Finset.sum_congr rfl fun b _ => Finset.sum_congr rfl fun k _ => ?_)
  unfold val_main_v31
  refine (colMin (val_main_v27 (F := Ideal) X Y) (val_main_cst_11 (F := Ideal)) (fun _ => Chamfer.ofBits_inf) b k).trans ?_
  exact congrArg Chamfer.fmin (funext fun q => dist1 X Y b q k)

/-- The first chunk's loss: its two sums, each divided by the count, added. -/
theorem chunk0 (X Y : Arr) (i : S_.Idx) :
    val_main_v16 (F := Ideal) X Y i = Chamfer.chunk (Chamfer.dRef X Y) 0 := by
  rw [val_main_v16_apply, val_main_v12_apply, val_main_v15_apply, rowSum0, colSum0, val_main_cst_2_apply,
    val_main_cst_5_apply]
  rfl

/-- The second chunk's loss. -/
theorem chunk1 (X Y : Arr) (i : S_.Idx) :
    val_main_v34 (F := Ideal) X Y i = Chamfer.chunk (Chamfer.dRef X Y) 1 := by
  rw [val_main_v34_apply, val_main_v30_apply, val_main_v33_apply, rowSum1, colSum1, val_main_cst_10_apply,
    val_main_cst_13_apply]
  rfl

/-- The reference program's result is the specification's value at the reference's distances: zero, plus the first
    chunk's loss, plus the second chunk's. -/
theorem ref_eq (X Y : (⟨S8x4096x3, .f32⟩ : BufTy).Contents (Elt Ideal)) (i : S_.Idx) :
    val_main_v35 (F := Ideal) X Y i = Chamfer.refVal (Chamfer.dRef X Y) := by
  rw [val_main_v35_apply, val_main_v17_apply, chunk0, chunk1, val_main_cst_6_apply, Ideal.ofBits_def,
    Ideal.ofBits_zero_f32]
  rfl

end Cert.ReferenceIdeal.RefValue

end
-- ==== Proof.Finite.lean ====
/-
  The precondition says: every entry of both argument arrays is smaller in absolute value than +∞.
  An extended real whose absolute value is below ⊤ is neither ⊤ nor ⊥, so it is a real number.
-/
import proofs.«175267_j56556129354082_1_alg».proof.Defs
import proofs.«175267_j56556129354082_1_alg».proof.Proof.Gen.Pre_finite_inputs
import Idealize.ShloMosaic.Lib.ReduceAll
import Idealize.ShloMosaic.PureOps.Ideal.Laws

noncomputable section

namespace Cert.KernelIdeal.Finite

open Idealize.ShloMosaic Idealize.SL.Sem

/-- The float word of +∞ is ⊤. -/
theorem ofBits_inf : Ideal.ofBits .f32 0x7F800000#32 = ⊤ := by simp [Ideal.ofBits, Ideal.ieee]

/-- An extended real whose absolute value max x (−x) compares below ⊤ is a real number:
    at ⊥ and at ⊤ the absolute value is ⊤ itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- One array: if the comparison of |x| with the broadcast +∞ is 1 at every index, every entry is real. -/
theorem real_of_cmp (x : FVec Ideal Cert.Pre_finite_inputs.S8x4096x3 .f32)
    (hb : Cert.Pre_finite_inputs.S_.BroadcastsInDim Cert.Pre_finite_inputs.S8x4096x3
      (![] : Fin 0 → Fin Cert.Pre_finite_inputs.S8x4096x3.rank))
    (i : Cert.Pre_finite_inputs.S8x4096x3.Idx)
    (h : cmpf .olt (Host.absf x) (broadcastInDim Cert.Pre_finite_inputs.S8x4096x3 ![] hb
      (constant Cert.Pre_finite_inputs.S_ .f32 0x7F800000#32)) i = 1#1) : ∃ r : ℝ, x i = (r : EReal) := by
  apply real_of_abs_lt_top
  rw [← ofBits_inf]
  exact h

theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h := congrFun (hpre c) (fun d => d.elim0)
  dsimp only [Cert.Pre_finite_inputs.fn] at h
  obtain ⟨h0, h1⟩ := IntOp.andi_eq_one.1 h
  exact ⟨fun i => real_of_cmp _ _ i (Host.reduce_andi_all _ _ _ _ _ h0 i),
    fun i => real_of_cmp _ _ i (Host.reduce_andi_all _ _ _ _ _ h1 i)⟩

end Cert.KernelIdeal.Finite

end
-- ==== Proof.lean ====
/-
  The certificate: a chamfer-distance kernel against its jnp reference, equal over the extended reals on finite inputs.

  Both programs take two arrays of points in ℝ³, f32[8, 4096, 3], cut each batch's 4096 points into two chunks of 2048,
  and for every (chunk, batch) form the 2048 × 2048 matrix of distances between the chunk's points of the first array
  (queries) and of the second (keys).  The loss is, summed over the chunks, the mean over (batch, query) of the distance
  to the nearest key plus the mean over (batch, key) of the distance to the nearest query.

  The reference computes each distance as the root of the sum of squared coordinate differences and takes the four
  means one by one.  The kernel computes |x|² + |y|² − 2 x·y (the cross term on the matrix unit), clamps it at zero,
  takes the root, and walks a grid of 2 × 8 × 4 points (chunk, batch, tile of 512 queries) keeping a running column
  minimum and ONE running total, divided by 8 · 2048 once, at the last point.

  On finite inputs the two forms of the squared distance are the same nonnegative real, so the clamp is the identity;
  the minimum over 2048 queries is the minimum of the four tiles' minima; and since every summand is nonnegative the one
  division distributes over the total.  The frames of the two kernel programs are the generated ones; the reference's is
  its generated run; the ideal pass rewrote nothing.
-/
import proofs.«175267_j56556129354082_1_alg».proof.Defs
import proofs.«175267_j56556129354082_1_alg».proof.Proof.Gen.Kernel
import proofs.«175267_j56556129354082_1_alg».proof.Proof.Gen.Kernel.Frame
import proofs.«175267_j56556129354082_1_alg».proof.Proof.Gen.KernelIdeal
import proofs.«175267_j56556129354082_1_alg».proof.Proof.Gen.KernelIdeal.Frame
import proofs.«175267_j56556129354082_1_alg».proof.Proof.Gen.ReferenceIdeal
import proofs.«175267_j56556129354082_1_alg».proof.Proof.Gen.ReferenceIdeal.Run
import proofs.«175267_j56556129354082_1_alg».proof.Proof.Gen.ReferenceIdeal.Read
import proofs.«175267_j56556129354082_1_alg».proof.Proof.Gen.Pre_finite_inputs
import proofs.«175267_j56556129354082_1_alg».proof.Proof.KernelValue
import proofs.«175267_j56556129354082_1_alg».proof.Proof.RefSide
import proofs.«175267_j56556129354082_1_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals, on finite inputs, the kernel's scalar and the reference's are the same chamfer loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.kresult m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.KernelIdeal.Finite.finite_of_pre m hpre c
  rw [Cert.ReferenceIdeal.Read.val_main_v35_eq, (hagree c).1, (hagree c).2]
  funext i
  exact (Cert.ReferenceIdeal.RefValue.ref_eq _ _ i).trans (Cert.KernelIdeal.KValue.result_eq m c hX hY i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
